-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S100000x1 : Shape := ⟨2, ![100000, 1]⟩
abbrev S5000x64 : Shape := ⟨2, ![5000, 64]⟩
abbrev S1x64 : Shape := ⟨2, ![1, 64]⟩
abbrev S1300000x64 : Shape := ⟨2, ![1300000, 64]⟩
abbrev S5000x1 : Shape := ⟨2, ![5000, 1]⟩

abbrev nBuf : Space → Nat
  | .hbm => 62
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S100000, .i32⟩
  | .hbm, ⟨13, _⟩ => ⟨S1300000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S100000, .f32⟩
  | .hbm, ⟨19, _⟩ => ⟨S1300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S_, .i32⟩
  | .hbm, ⟨35, _⟩ => ⟨S1300000, .i32⟩
  | .hbm, ⟨36, _⟩ => ⟨S1300000, .i1⟩
  | .hbm, ⟨37, _⟩ => ⟨S_, .i32⟩
  | .hbm, ⟨38, _⟩ => ⟨S1300000, .i32⟩
  | .hbm, ⟨39, _⟩ => ⟨S1300000, .i32⟩
  | .hbm, ⟨40, _⟩ => ⟨S1300000, .i32⟩
  | .hbm, ⟨41, _⟩ => ⟨S1300000x1, .i32⟩
  | .hbm, ⟨42, _⟩ => ⟨S1300000x64, .f32⟩
  | .hbm, ⟨43, _⟩ => ⟨S_, .f32⟩
  | .hbm, ⟨44, _⟩ => ⟨S100000x64, .f32⟩
  | .hbm, ⟨45, _⟩ => ⟨S1300000x1, .i32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1300000, .i32⟩
  | .hbm, ⟨50, _⟩ => ⟨S1300000, .i1⟩
  | .hbm, ⟨51, _⟩ => ⟨S_, .i32⟩
  | .hbm, ⟨52, _⟩ => ⟨S1300000, .i32⟩
  | .hbm, ⟨53, _⟩ => ⟨S1300000, .i32⟩
  | .hbm, ⟨54, _⟩ => ⟨S1300000, .i32⟩
  | .hbm, ⟨55, _⟩ => ⟨S1300000x1, .i32⟩
  | .hbm, ⟨56, _⟩ => ⟨S1300000x64, .f32⟩
  | .hbm, ⟨57, _⟩ => ⟨S_, .f32⟩
  | .hbm, ⟨58, _⟩ => ⟨S100000x64, .f32⟩
  | .hbm, ⟨59, _⟩ => ⟨S1300000x1, .i32⟩
  | .hbm, ⟨60, _⟩ => ⟨S100000x64, .f32⟩
  | .hbm, ⟨61, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S64x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S64x64, .f32⟩
  | .local _ .vmem, ⟨23, _⟩ => ⟨S64, .f32⟩
  | .local _ .vmem, ⟨24, _⟩ => ⟨S5000x64, .f32⟩
  | .local _ .vmem, ⟨25, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  scatter_S100000_S1300000x1_S1300000_n_0_0_1_wf : ScatterDims.WF S100000 S1300000x1 S1300000 [] [0] [0] 1
  dot_S5000x64_S64x64_S5000x64_1_0_0_1_n_n_wf : DotDims.WF S5000x64 S64x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S1x64 : Shape := ⟨2, ![1, 64]⟩
abbrev S_ : Shape := ⟨0, ![]⟩
abbrev S100000 : Shape := ⟨1, ![100000]⟩
abbrev S1300000 : Shape := ⟨1, ![1300000]⟩
abbrev S1300000x1 : Shape := ⟨2, ![1300000, 1]⟩
abbrev S1300000x64 : Shape := ⟨2, ![1300000, 64]⟩
abbrev S100000x1 : Shape := ⟨2, ![100000, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S100000, .i32⟩
  | .hbm, ⟨20, _⟩ => ⟨S1300000, .i32⟩
  | .hbm, ⟨21, _⟩ => ⟨S1300000, .i32⟩
  | .hbm, ⟨22, _⟩ => ⟨S_, .f32⟩
  | .hbm, ⟨23, _⟩ => ⟨S1300000, .f32⟩
  | .hbm, ⟨24, _⟩ => ⟨S_, .f32⟩
  | .hbm, ⟨25, _⟩ => ⟨S100000, .f32⟩
  | .hbm, ⟨26, _⟩ => ⟨S1300000x1, .i32⟩
  | .hbm, ⟨27, _⟩ => ⟨S100000, .f32⟩
  | .hbm, ⟨28, _⟩ => ⟨S_, .i32⟩
  | .hbm, ⟨29, _⟩ => ⟨S1300000, .i32⟩
  | .hbm, ⟨30, _⟩ => ⟨S1300000, .i1⟩
  | .hbm, ⟨31, _⟩ => ⟨S_, .i32⟩
  | .hbm, ⟨32, _⟩ => ⟨S1300000, .i32⟩
  | .hbm, ⟨33, _⟩ => ⟨S1300000, .i32⟩
  | .hbm, ⟨34, _⟩ => ⟨S1300000, .i32⟩
  | .hbm, ⟨35, _⟩ => ⟨S1300000x1, .i32⟩
  | .hbm, ⟨36, _⟩ => ⟨S1300000x64, .f32⟩
  | .hbm, ⟨37, _⟩ => ⟨S_, .f32⟩
  | .hbm, ⟨38, _⟩ => ⟨S100000x64, .f32⟩
  | .hbm, ⟨39, _⟩ => ⟨S1300000x1, .i32⟩
  | .hbm, ⟨40, _⟩ => ⟨S100000x64, .f32⟩
  | .hbm, ⟨41, _⟩ => ⟨S_, .f32⟩
  | .hbm, ⟨42, _⟩ => ⟨S100000, .f32⟩
  | .hbm, ⟨43, _⟩ => ⟨S1300000x1, .i32⟩
  | .hbm, ⟨44, _⟩ => ⟨S100000, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S100000, .i32⟩
  | .hbm, ⟨60, _⟩ => ⟨S1300000, .i32⟩
  | .hbm, ⟨61, _⟩ => ⟨S1300000, .i32⟩
  | .hbm, ⟨62, _⟩ => ⟨S_, .f32⟩
  | .hbm, ⟨63, _⟩ => ⟨S1300000, .f32⟩
  | .hbm, ⟨64, _⟩ => ⟨S_, .f32⟩
  | .hbm, ⟨65, _⟩ => ⟨S100000, .f32⟩
  | .hbm, ⟨66, _⟩ => ⟨S1300000x1, .i32⟩
  | .hbm, ⟨67, _⟩ => ⟨S100000, .f32⟩
  | .hbm, ⟨68, _⟩ => ⟨S_, .i32⟩
  | .hbm, ⟨69, _⟩ => ⟨S1300000, .i32⟩
  | .hbm, ⟨70, _⟩ => ⟨S1300000, .i1⟩
  | .hbm, ⟨71, _⟩ => ⟨S_, .i32⟩
  | .hbm, ⟨72, _⟩ => ⟨S1300000, .i32⟩
  | .hbm, ⟨73, _⟩ => ⟨S1300000, .i32⟩
  | .hbm, ⟨74, _⟩ => ⟨S1300000, .i32⟩
  | .hbm, ⟨75, _⟩ => ⟨S1300000x1, .i32⟩
  | .hbm, ⟨76, _⟩ => ⟨S1300000x64, .f32⟩
  | .hbm, ⟨77, _⟩ => ⟨S_, .f32⟩
  | .hbm, ⟨78, _⟩ => ⟨S100000x64, .f32⟩
  | .hbm, ⟨79, _⟩ => ⟨S1300000x1, .i32⟩
  | .hbm, ⟨80, _⟩ => ⟨S100000x64, .f32⟩
  | .hbm, ⟨81, _⟩ => ⟨S_, .f32⟩
  | .hbm, ⟨82, _⟩ => ⟨S100000, .f32⟩
  | .hbm, ⟨83, _⟩ => ⟨S1300000x1, .i32⟩
  | .hbm, ⟨84, _⟩ => ⟨S100000, .f32⟩
  | .hbm, ⟨85, _⟩ => ⟨S100000x1, .f32⟩
  | .hbm, ⟨86, _⟩ => ⟨S100000x64, .f32⟩
  | .hbm, ⟨87, _⟩ => ⟨S100000x64, .f32⟩
  | .hbm, ⟨88, _⟩ => ⟨S100000x1, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S100000x64, .f32⟩
  | .hbm, ⟨98, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call1_cst : Ref sig .tc := ⟨.hbm, 56, rfl⟩
abbrev main_call1_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_6 : Ref sig .tc := ⟨.hbm, 68, rfl⟩
abbrev main_v48 : Ref sig .tc := ⟨.hbm, 69, rfl⟩
abbrev main_v49 : Ref sig .tc := ⟨.hbm, 70, rfl⟩
abbrev main_c_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call2_cst : Ref sig .tc := ⟨.hbm, 96, rfl⟩
abbrev main_call2_v0 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.KernelRun.lean ====
/-
  The idealized kernel's run with its result named.

  The program is three pipelined regions among stretches of host operations. Its frame certificate folds the buffer
  contents through the segments: after the last region every unscoped buffer holds the last boundary's contents. Read at
  the result's buffer, that is the statement here; the argument arrays end as launched, as in the frame itself.
-/
import proofs.«177973_j70866960384012_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at it, and the arguments are as launched. -/
theorem run_result : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Hand

end
-- ==== Proof.Spec.lean ====
/-
  The mathematics of the certified pair, stated once over arrays of extended reals.

  A node array z : [R, 64] goes through three dense layers. A dense layer sends x to max(x · w + b, 0): entry (r, c) is
  max(Σ_k x[r, k] · w[k, c] + b[c], 0). Between two layers every row is sharpened by a high-pass filter: from row r of z
  the filter subtracts row r of the neighbour sum m, scaled by a per-row factor s[r]:
      sharpen z m s (r, k) = z[r, k] − m[r, k] · s[r].
  One side divides m[r, k] first by the number of edges arriving at r and then by the number leaving r; the other
  multiplies it by the product of the two reciprocals. Both counts are at least one, hence nonzero, and for a nonzero
  divisor the quotient of extended reals is the product with the inverse; so the two agree by associativity of the product
  alone, also where m[r, k] is infinite.
  Every entry of a layer's result depends on one row of its input only, so a layer applied to a block of rows is the
  corresponding block of the layer applied to the whole array (`layer_rows`, `dense_rows`).
-/
import Mathlib
import Idealize.ShloMosaic.PureOps.Ideal
import Idealize.ShloMosaic.PureOps.Ideal.Laws
import Idealize.ShloMosaic.Lib.ValueIdx

noncomputable section

open scoped BigOperators

namespace Cert.HighPass

open Idealize.ShloMosaic Idealize.ShloMosaic.ValueIdx

/-- The f32 word of zero, as both programs spell the floor of a layer. -/
abbrev floorWord : EReal := Ideal.ofBits .f32 0x00000000#32

/-- An array [R, C] given by its entries. -/
def ofEntries {R C : Nat} (f : Fin R → Fin C → EReal) : FVec Ideal ⟨2, ![R, C]⟩ .f32 := fun i => f (i 0) (i 1)

theorem ofEntries_ix2 {R C : Nat} (f : Fin R → Fin C → EReal) (p : Fin R) (q : Fin C) : ofEntries f (ix2 p q) = f p q := rfl

/-- A dense layer with a floor at zero: entry (r, c) is max(Σ_k x[r, k] · w[k, c] + b[c], 0). -/
def dense {R : Nat} (x : FVec Ideal ⟨2, ![R, 64]⟩ .f32) (w : FVec Ideal ⟨2, ![64, 64]⟩ .f32) (b : FVec Ideal ⟨1, ![64]⟩ .f32) :
    FVec Ideal ⟨2, ![R, 64]⟩ .f32 :=
  ofEntries fun r c => max (∑ k : Fin 64, x (ix2 r k) * w (ix2 k c) + b (ix1 c)) floorWord

/-- The high-pass step: row r of z minus row r of m scaled by s[r]. -/
def sharpen {R : Nat} (z m : FVec Ideal ⟨2, ![R, 64]⟩ .f32) (s : FVec Ideal ⟨2, ![R, 1]⟩ .f32) : FVec Ideal ⟨2, ![R, 64]⟩ .f32 :=
  ofEntries fun r k => z (ix2 r k) - m (ix2 r k) * s (ix2 r (0 : Fin 1))

/-- A sharpened dense layer. -/
def layer {R : Nat} (z m : FVec Ideal ⟨2, ![R, 64]⟩ .f32) (s : FVec Ideal ⟨2, ![R, 1]⟩ .f32)
    (w : FVec Ideal ⟨2, ![64, 64]⟩ .f32) (b : FVec Ideal ⟨1, ![64]⟩ .f32) : FVec Ideal ⟨2, ![R, 64]⟩ .f32 :=
  dense (sharpen z m s) w b

theorem dense_ix2 {R : Nat} (x : FVec Ideal ⟨2, ![R, 64]⟩ .f32) (w : FVec Ideal ⟨2, ![64, 64]⟩ .f32) (b : FVec Ideal ⟨1, ![64]⟩ .f32)
    (r : Fin R) (c : Fin 64) :
    dense x w b (ix2 r c) = max (∑ k : Fin 64, x (ix2 r k) * w (ix2 k c) + b (ix1 c)) floorWord := rfl

theorem sharpen_ix2 {R : Nat} (z m : FVec Ideal ⟨2, ![R, 64]⟩ .f32) (s : FVec Ideal ⟨2, ![R, 1]⟩ .f32) (r : Fin R) (k : Fin 64) :
    sharpen z m s (ix2 r k) = z (ix2 r k) - m (ix2 r k) * s (ix2 r (0 : Fin 1)) := rfl

/-- Two arrays [R, C] that agree at every (p, q) are equal. -/
theorem ext_ix2 {R C : Nat} {f g : FVec Ideal ⟨2, ![R, C]⟩ .f32} (h : ∀ (p : Fin R) (q : Fin C), f (ix2 p q) = g (ix2 p q)) : f = g := by
  funext j
  rw [eq_ix2 j]
  exact h _ _

/-- A dense layer of a block of rows is that block of the dense layer of the whole array. -/
theorem dense_rows {R B : Nat} (x : FVec Ideal ⟨2, ![R, 64]⟩ .f32) (xb : FVec Ideal ⟨2, ![B, 64]⟩ .f32)
    (w : FVec Ideal ⟨2, ![64, 64]⟩ .f32) (b : FVec Ideal ⟨1, ![64]⟩ .f32) (p : Fin B) (r : Fin R)
    (hx : ∀ k : Fin 64, xb (ix2 p k) = x (ix2 r k)) (c : Fin 64) :
    dense xb w b (ix2 p c) = dense x w b (ix2 r c) := by
  rw [dense_ix2, dense_ix2]
  exact congrArg (fun t => max (t + b (ix1 c)) floorWord) (Finset.sum_congr rfl fun k _ => by rw [hx k])

/-- A sharpened layer of a block of rows is that block of the sharpened layer of the whole arrays. -/
theorem layer_rows {R B : Nat} (z m : FVec Ideal ⟨2, ![R, 64]⟩ .f32) (s : FVec Ideal ⟨2, ![R, 1]⟩ .f32)
    (zb mb : FVec Ideal ⟨2, ![B, 64]⟩ .f32) (sb : FVec Ideal ⟨2, ![B, 1]⟩ .f32)
    (w : FVec Ideal ⟨2, ![64, 64]⟩ .f32) (b : FVec Ideal ⟨1, ![64]⟩ .f32) (p : Fin B) (r : Fin R)
    (hz : ∀ k : Fin 64, zb (ix2 p k) = z (ix2 r k)) (hm : ∀ k : Fin 64, mb (ix2 p k) = m (ix2 r k))
    (hs : sb (ix2 p (0 : Fin 1)) = s (ix2 r (0 : Fin 1))) (c : Fin 64) :
    layer zb mb sb w b (ix2 p c) = layer z m s w b (ix2 r c) :=
  dense_rows _ _ w b p r (fun k => by rw [sharpen_ix2, sharpen_ix2, hz k, hm k, hs]) c

end Cert.HighPass

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibRowOps.lean ====
/-
  A block of rows through the operations of a dense layer, read at an entry over the extended reals.

  For a block x of B rows and K lanes, a weight w of K rows and N lanes, and a bias b of N entries:
    * entry (r, k) of a kernel's product x · w accumulated into the zero splat, and of the host's product, is
      Σ_j x[r, j] · w[j, k]                                                         (matmul_entry, dot_entry);
    * the bias recast as a row and broadcast down the rows (the kernel's form), or broadcast to a row and then down the
      rows (the host's form), reads b[k] at (r, k)                                   (bias_rows, bias_rows_host);
    * a scalar constant broadcast to any shape reads the constant                    (scalar_bcast_host);
    * the logistic function, and the host's spelling of y · σ(y) and of σ(y) through negate, exponential, add and divide,
      read entry by entry                                                           (logistic_apply, host_silu_apply, host_sigmoid_apply);
    * the kernel's lane sum of a block, recast as a column, reads Σ_k v[r, k] at (r, 0)   (lane_sum_col);
    * a one-entry vector recast [1, 1] and broadcast to a column reads its entry      (unit_col).
  Each reading re-indexes; none needs finiteness.
-/
import Mathlib
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«177973_j70866960384012_1_alg».proof.Proof.LibDotRows
import proofs.«177973_j70866960384012_1_alg».proof.Proof.LibColBroadcast
import proofs.«177973_j70866960384012_1_alg».proof.Proof.LibRowReduce

noncomputable section

open scoped BigOperators

namespace Cert.LibRowOps

open Idealize.ShloMosaic Idealize.ShloMosaic.ValueIdx

variable {α : Type} {B K N C : Nat} {φ₁ φ₂ : FTy}

/-- The logistic function of an array reads, at an index, the logistic function of the entry. -/
theorem logistic_apply {s : Shape} {φ : FTy} (v : FVec Ideal s φ) (i : s.Idx) : logistic v i = Ideal.logistic (v i) := rfl

/-- The host's spelling of y · 1 / (1 + e^(-y)) on an array, with the two ones given as arrays that read 1, reads at an
    index y · σ(y) of the entry. -/
theorem host_silu_apply {s : Shape} (y one one' : FVec Ideal s .f32) (i : s.Idx) (h1 : one i = 1) (h1' : one' i = 1) :
    mulf y (Host.divf one' (addf one (Host.exp (Host.negf y)))) i = y i * Ideal.logistic (y i) := by
  show y i * Ideal.div (one' i) (one i + Ideal.exp (-(y i))) = y i * Ideal.div 1 (1 + Ideal.exp (-(y i)))
  rw [h1, h1']

/-- The host's spelling of 1 / (1 + e^(-y)) on an array reads at an index σ of the entry. -/
theorem host_sigmoid_apply {s : Shape} (y one one' : FVec Ideal s .f32) (i : s.Idx) (h1 : one i = 1) (h1' : one' i = 1) :
    Host.divf one' (addf one (Host.exp (Host.negf y))) i = Ideal.logistic (y i) := by
  show Ideal.div (one' i) (one i + Ideal.exp (-(y i))) = Ideal.div 1 (1 + Ideal.exp (-(y i)))
  rw [h1, h1']

/-- Entry (r, k) of a kernel's product into the zero splat, for any record of the plain dimension numbers. -/
theorem matmul_entry (d : DotDims ⟨2, ![B, K]⟩ ⟨2, ![K, N]⟩ ⟨2, ![B, N]⟩) (hd : d = DotDims.plain B K N)
    (x : FVec Ideal ⟨2, ![B, K]⟩ φ₁) (w : FVec Ideal ⟨2, ![K, N]⟩ φ₂) (r : Fin B) (k : Fin N) :
    matmul (F := Ideal) d none x w (constant ⟨2, ![B, N]⟩ .f32 0x00000000#32) (ix2 r k)
      = ∑ j : Fin K, x (ix2 r j) * w (ix2 j k) := by
  subst hd
  exact Cert.Lib.DotRows.matmul_plain_apply x w r k

/-- Entry (r, k) of the host's product, for any record of the plain dimension numbers. -/
theorem dot_entry (d : DotDims ⟨2, ![B, K]⟩ ⟨2, ![K, N]⟩ ⟨2, ![B, N]⟩) (hd : d = DotDims.plain B K N)
    (x : FVec Ideal ⟨2, ![B, K]⟩ φ₁) (w : FVec Ideal ⟨2, ![K, N]⟩ φ₂) (r : Fin B) (k : Fin N) :
    Host.dotGeneral (F := Ideal) d none x w (ix2 r k) = ∑ j : Fin K, x (ix2 r j) * w (ix2 j k) := by
  subst hd
  exact Cert.Lib.DotRows.dotGeneral_plain_apply x w r k

/-- A bias vector recast as a row and broadcast down B rows reads its entry k at (r, k). -/
theorem bias_rows (v : (⟨1, ![C]⟩ : Shape).Idx → α) (hc : (⟨1, ![C]⟩ : Shape).ShapeCasts ⟨2, ![1, C]⟩)
    (hb : (⟨2, ![1, C]⟩ : Shape).Broadcasts ⟨2, ![B, C]⟩) (r : Fin B) (k : Fin C) :
    broadcastTo ⟨2, ![B, C]⟩ (shapeCast ⟨2, ![1, C]⟩ v hc) hb (ix2 r k) = v (ix1 k) :=
  (broadcastTo_1b_ab_apply _ hb r k).trans (shapeCast_a_1a_apply v hc 0 k)

/-- A bias vector broadcast to a row and then down B rows (the host's two broadcasts) reads its entry k at (r, k). -/
theorem bias_rows_host (v : (⟨1, ![C]⟩ : Shape).Idx → α)
    (h0 : (⟨1, ![C]⟩ : Shape).BroadcastsInDim ⟨2, ![1, C]⟩ (![1] : Fin 1 → Fin 2))
    (h1 : (⟨2, ![1, C]⟩ : Shape).BroadcastsInDim ⟨2, ![B, C]⟩ (![0, 1] : Fin 2 → Fin 2)) (r : Fin B) (k : Fin C) :
    broadcastInDim ⟨2, ![B, C]⟩ ![0, 1] h1 (broadcastInDim ⟨2, ![1, C]⟩ ![1] h0 v) (ix2 r k) = v (ix1 k) := by
  have e1 : broadcastInDim ⟨2, ![B, C]⟩ ![0, 1] h1 (broadcastInDim ⟨2, ![1, C]⟩ ![1] h0 v) (ix2 r k)
      = broadcastInDim ⟨2, ![1, C]⟩ ![1] h0 v (ix2 (0 : Fin 1) k) :=
    broadcastInDim_apply _ h1 _ (ix2 r k) (ix2 (0 : Fin 1) k) fun a => by
      match a with
      | ⟨0, _⟩ => rfl
      | ⟨1, _⟩ =>
        show k.val = if C = 1 then 0 else k.val
        split
        · have := k.isLt; omega
        · rfl
  have e2 : broadcastInDim ⟨2, ![1, C]⟩ ![1] h0 v (ix2 (0 : Fin 1) k) = v (ix1 k) :=
    broadcastInDim_apply _ h0 v (ix2 (0 : Fin 1) k) (ix1 k) fun a => by
      match a with
      | ⟨0, _⟩ =>
        show k.val = if C = 1 then 0 else k.val
        split
        · have := k.isLt; omega
        · rfl
  exact e1.trans e2

/-- A scalar broadcast to any shape (the host's form) reads the scalar. -/
theorem scalar_bcast_host {s : Shape} (v : (⟨0, ![]⟩ : Shape).Idx → α)
    (h : (⟨0, ![]⟩ : Shape).BroadcastsInDim s (![] : Fin 0 → Fin s.rank)) (i : s.Idx) :
    broadcastInDim s ![] h v i = v ix0 :=
  broadcastInDim_apply _ h v i ix0 fun a => a.elim0

/-- The kernel's lane sum of a block, recast as a column, reads the row's sum at (r, 0). -/
theorem lane_sum_col (v : FVec Ideal ⟨2, ![B, C]⟩ .f32)
    (h : (⟨2, ![B, C]⟩ : Shape).Reduces [1] (⟨1, ![B]⟩ : Shape)) (hφ : FKind.Formats .f32)
    (hacc : (0x00000000#32 : BitVec 32) = FKind.add.neutral .f32 hφ)
    (hc : (⟨1, ![B]⟩ : Shape).ShapeCasts ⟨2, ![B, 1]⟩) (r : Fin B) :
    shapeCast ⟨2, ![B, 1]⟩ (multiReduction .add [1] (⟨1, ![B]⟩ : Shape) v 0x00000000#32 h hφ hacc) hc (ix2 r (0 : Fin 1))
      = ∑ k : Fin C, v (ix2 r k) :=
  (Cert.LibRowReduce.shapeCast_col_apply _ hc r).trans (Cert.LibRowReduce.multiReduction_add_row v h hφ hacc r)

/-- The same with the accumulator's neutrality stated on the words themselves (zero is zero), whatever proof of the
    format's admissibility the reduction carries. -/
theorem lane_sum_col_zero (v : FVec Ideal ⟨2, ![B, C]⟩ .f32)
    (h : (⟨2, ![B, C]⟩ : Shape).Reduces [1] (⟨1, ![B]⟩ : Shape)) (hφ : FKind.Formats .f32)
    (hacc : (0x00000000#32 : BitVec 32) = 0x00000000#32)
    (hc : (⟨1, ![B]⟩ : Shape).ShapeCasts ⟨2, ![B, 1]⟩) (r : Fin B) :
    shapeCast ⟨2, ![B, 1]⟩ (multiReduction .add [1] (⟨1, ![B]⟩ : Shape) v 0x00000000#32 h hφ hacc) hc (ix2 r (0 : Fin 1))
      = ∑ k : Fin C, v (ix2 r k) :=
  lane_sum_col v h hφ hacc hc r

/-- A one-entry vector recast [1, 1] and broadcast to a column of B rows reads its entry at (r, 0). -/
theorem unit_col (v : (⟨1, ![1]⟩ : Shape).Idx → α) (hc : (⟨1, ![1]⟩ : Shape).ShapeCasts ⟨2, ![1, 1]⟩)
    (hb : (⟨2, ![1, 1]⟩ : Shape).Broadcasts ⟨2, ![B, 1]⟩) (r : Fin B) :
    broadcastTo ⟨2, ![B, 1]⟩ (shapeCast ⟨2, ![1, 1]⟩ v hc) hb (ix2 r (0 : Fin 1)) = v (ix1 (0 : Fin 1)) :=
  (broadcastTo_1b_ab_apply _ hb r (0 : Fin 1)).trans (shapeCast_a_1a_apply v hc 0 0)

/-- A one-entry vector broadcast to [1, 1] and then to a column of B rows (the host's form) reads its entry. -/
theorem unit_col_host (v : (⟨1, ![1]⟩ : Shape).Idx → α)
    (h0 : (⟨1, ![1]⟩ : Shape).BroadcastsInDim ⟨2, ![1, 1]⟩ (![1] : Fin 1 → Fin 2))
    (h1 : (⟨2, ![1, 1]⟩ : Shape).BroadcastsInDim ⟨2, ![B, 1]⟩ (![0, 1] : Fin 2 → Fin 2)) (r : Fin B) :
    broadcastInDim ⟨2, ![B, 1]⟩ ![0, 1] h1 (broadcastInDim ⟨2, ![1, 1]⟩ ![1] h0 v) (ix2 r (0 : Fin 1)) = v (ix1 (0 : Fin 1)) :=
  bias_rows_host v h0 h1 r 0

/-- A column broadcast across C lanes (the host's form) reads the column's entry of the row. -/
theorem col_bcast_host (v : (⟨2, ![B, 1]⟩ : Shape).Idx → α)
    (h : (⟨2, ![B, 1]⟩ : Shape).BroadcastsInDim ⟨2, ![B, C]⟩ (![0, 1] : Fin 2 → Fin 2)) (r : Fin B) (k : Fin C) :
    broadcastInDim ⟨2, ![B, C]⟩ ![0, 1] h v (ix2 r k) = v (ix2 r (0 : Fin 1)) :=
  broadcastInDim_apply _ h v (ix2 r k) (ix2 r (0 : Fin 1)) fun a => by
    match a with
    | ⟨0, _⟩ =>
      show r.val = if B = 1 then 0 else r.val
      split
      · have := r.isLt; omega
      · rfl
    | ⟨1, _⟩ => rfl

end Cert.LibRowOps

end
-- ==== Proof.Pay.lean ====
/-
  What each kernel body stores, read as the layer it computes.

  Over the extended reals a change of float format is the identity, the matrix product into the zero splat is the plain
  sum of products, the bias recast as a row and broadcast down the rows reads b[c], and the scale column broadcast across
  the lanes reads s[r]. So the first body's stored block is the dense layer of its input block, and the second and third
  bodies' stored block is the sharpened dense layer of theirs.
-/
import proofs.«177973_j70866960384012_1_alg».proof.Proof.Gen.KernelIdeal.Skeleton
import proofs.«177973_j70866960384012_1_alg».proof.Proof.Spec
import proofs.«177973_j70866960384012_1_alg».proof.Proof.LibRowOps
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.KernelIdeal Cert.KernelIdeal.Gen Cert.HighPass

/-- The first body's stored block is the dense layer of the loaded block, weight and bias. -/
theorem dense_pay (x0 : Vec Ideal S5000x64 .f32) (x1 : Vec Ideal S64x64 .f32) (x2 : Vec Ideal S64 .f32) :
    k0_pay1 (F := Ideal) x0 x1 x2 = dense x0 x1 x2 := by
  refine ext_ix2 fun p q => ?_
  rw [dense_ix2]
  unfold k0_pay1
  exact congrArg₂ max (congrArg₂ (· + ·) (Cert.LibRowOps.matmul_entry _ rfl _ _ p q) (Cert.LibRowOps.bias_rows x2 _ _ p q)) rfl

/-- The operand of the second body's product: the loaded block sharpened by the loaded sums and scale column. -/
theorem sharpen_operand (x0 x1 : Vec Ideal S5000x64 .f32) (x2 : Vec Ideal S5000x1 .f32) (p : Fin 5000) (k : Fin 64) :
    (truncf .bf16 (subf (shapeCast S5000x64 x0 shapeCasts_S5000x64_S5000x64)
      (mulf (shapeCast S5000x64 x1 shapeCasts_S5000x64_S5000x64)
        (broadcastTo S5000x64 (shapeCast S5000x1 x2 shapeCasts_S5000x1_S5000x1) broadcasts_S5000x1_S5000x64))) bitsLt_bf16_f32
        : FVec Ideal S5000x64 .bf16) (ix2 p k)
      = sharpen x0 x1 x2 (ix2 p k) := by
  rw [sharpen_ix2, shapeCast_self, shapeCast_self, shapeCast_self]
  exact congrArg (fun t => x0 (ix2 p k) - x1 (ix2 p k) * t) (Cert.LibColBroadcast.broadcastTo_a1_ab_apply x2 _ p k)

/-- The second body's stored block is the sharpened dense layer of its loaded blocks. -/
theorem layer_pay1 (x0 x1 : Vec Ideal S5000x64 .f32) (x2 : Vec Ideal S5000x1 .f32) (x3 : Vec Ideal S64x64 .f32) (x4 : Vec Ideal S64 .f32) :
    k1_pay1 (F := Ideal) x0 x1 x2 x3 x4 = layer x0 x1 x2 x3 x4 := by
  refine ext_ix2 fun p q => ?_
  unfold layer
  rw [dense_ix2]
  unfold k1_pay1
  refine congrArg₂ max (congrArg₂ (· + ·) ((Cert.LibRowOps.matmul_entry _ rfl _ _ p q).trans ?_) (Cert.LibRowOps.bias_rows x4 _ _ p q)) rfl
  exact Finset.sum_congr rfl fun k _ => congrArg (· * x3 (ix2 k q)) (sharpen_operand x0 x1 x2 p k)

/-- The third body is the second body's text: the same stored block. -/
theorem layer_pay2 (x0 x1 : Vec Ideal S5000x64 .f32) (x2 : Vec Ideal S5000x1 .f32) (x3 : Vec Ideal S64x64 .f32) (x4 : Vec Ideal S64 .f32) :
    k2_pay1 (F := Ideal) x0 x1 x2 x3 x4 = layer x0 x1 x2 x3 x4 :=
  (show k2_pay1 (F := Ideal) x0 x1 x2 x3 x4 = k1_pay1 (F := Ideal) x0 x1 x2 x3 x4 from rfl).trans (layer_pay1 x0 x1 x2 x3 x4)

end Cert.KernelIdeal.Pay

end
-- ==== Proof.Region0.lean ====
/-
  The first region's result array: the dense layer of the arrays the region finds.

  The grid has 20 points; point t stores rows 5000·t … 5000·t + 4999 of the result, computed from the same rows of the
  input and from the whole weight and bias. A dense layer's row depends on the same row of its input only, so what point t
  writes back is block t of the dense layer of the whole input; the 20 blocks cover the array.
-/
import proofs.«177973_j70866960384012_1_alg».proof.Proof.Gen.KernelIdeal.Frame
import proofs.«177973_j70866960384012_1_alg».proof.Proof.Pay
import Idealize.ShloMosaic.Lib.Pipeline.Value

set_option maxRecDepth 16384

noncomputable section

namespace Cert.KernelIdeal.Hand

open Cert.KernelIdeal Cert.KernelIdeal.Gen Cert.HighPass
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row windows sit at block t, the weight and bias windows at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Row p of the input block at point t is row 5000·t + p of the input array. -/
theorem iblk0_rows (c : Dev nD) (t : Fin cfg0.N) (p : Fin 5000) (k : Fin 64) (hp : 5000 * t.val + p.val < 100000) :
    (iblk0 V c 0 t : Vec Ideal S5000x64 .f32) (ix2 p k) = (V c main_arg0 : Vec Ideal S100000x64 .f32) (ix2 ⟨5000 * t.val + p.val, hp⟩ k) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- The weight block at every point is the whole weight. -/
theorem iblk0_weight (c : Dev nD) (t : Fin cfg0.N) : (iblk0 V c 1 t : Vec Ideal S64x64 .f32) = V c main_arg2 := by
  obtain ⟨-, -, e0, e1, -⟩ := idx0 t
  funext y
  unfold iblk0
  rw [View.read_apply]
  show V c main_arg2 _ = V c main_arg2 _
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The bias block at every point is the whole bias. -/
theorem iblk0_bias (c : Dev nD) (t : Fin cfg0.N) : (iblk0 V c 2 t : Vec Ideal S64 .f32) = V c main_arg3 := by
  obtain ⟨-, -, -, -, e0, -⟩ := idx0 t
  funext y
  unfold iblk0
  rw [View.read_apply]
  show V c main_arg3 _ = V c main_arg3 _
  congr 1
  funext a
  apply Fin.ext
  match a with
  | ⟨0, _⟩ => show win0_2.index t (0 : Fin 1) * 64 + 1 * (y 0).val = (y 0).val; rw [e0]; omega

/-- What point t writes back is block t of the dense layer of the whole arrays. -/
theorem flushed0 (c : Dev nD) (t : Fin cfg0.N) :
    (dat0 V c).flushed 3 t = ((cfg0.win 3).blk t).view.read (Elt Ideal)
      (dense (V c main_arg0) (V c main_arg2) (V c main_arg3) : Vec Ideal S100000x64 .f32) := by
  show (cfg0.win 3).cut (grid0.coords t) ((dat0 V c).after 3 t) = _
  rw [after0_3]
  unfold out0_3
  rw [View.canon_unit_zero hz2]
  simp only [View.ld_unit_zero (S := S5000x64) hz2, View.ld_unit_zero (S := S64x64) hz2, View.ld_unit_zero (S := S64) hz1]
  rw [Pay.dense_pay, iblk0_weight, iblk0_bias]
  obtain ⟨-, -, -, -, -, e0, e1⟩ := idx0 t
  have ht : t.val < 20 := lt_of_lt_of_eq t.isLt N_0
  funext j
  obtain ⟨p, q, rfl⟩ : ∃ (p : Fin 5000) (q : Fin 64), j = ix2 p q := ⟨j 0, j 1, eq_ix2 j⟩
  have hp : 5000 * t.val + p.val < 100000 := by have := p.isLt; omega
  show dense (iblk0 V c 0 t) (V c main_arg2) (V c main_arg3) (ix2 p q)
    = dense (V c main_arg0) (V c main_arg2) (V c main_arg3) (((cfg0.win 3).blk t).view.emb (ix2 p q))
  have he : ((cfg0.win 3).blk t).view.emb (ix2 p q) = ix2 (⟨5000 * t.val + p.val, hp⟩ : Fin 100000) q := by
    funext a
    apply Fin.ext
    match a with
    | ⟨0, _⟩ => show win0_3.index t (0 : Fin 2) * 5000 + 1 * p.val = 5000 * t.val + p.val; rw [e0]; omega
    | ⟨1, _⟩ => show win0_3.index t (1 : Fin 2) * 64 + 1 * q.val = q.val; rw [e1]; omega
  rw [he]
  exact dense_rows _ _ _ _ p _ (fun k => iblk0_rows V c t p k hp) q

/-- An index of the result array lies in point t's block iff each coordinate lies in the block's range. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v20).slice (win0_3.rect t)).set ↔ _
  rw [View.set_slice_whole, Rect.mem_set_unit]
  exact Iff.rfl

/-- Row r of the result is written by point r / 5000. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have hlt : (i 0).val / 5000 < cfg0.N := by rw [hN]; omega
  refine ⟨⟨(i 0).val / 5000, hlt⟩, flush0_3 _, ?_⟩
  rw [mem_blk0]
  obtain ⟨-, -, -, -, -, e0, e1⟩ := idx0 ⟨(i 0).val / 5000, hlt⟩
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    rw [e1]; omega

/-- The first region's result array after its run. -/
theorem region0 (c : Dev nD) :
    (dat0 V c).arrAt 3 cfg0.N = (dense (V c main_arg0) (V c main_arg2) (V c main_arg3) : Vec Ideal S100000x64 .f32) :=
  (dat0 V c).arrAt_eq_of_cover 3 _ (fun t _ => flushed0 V c t) cover0

end Cert.KernelIdeal.Hand

end
-- ==== Proof.Region1.lean ====
/-
  The second region's result array: the sharpened dense layer of the arrays the region finds.

  The grid has 20 points; point t stores rows 5000·t … 5000·t + 4999 of the result, computed from the same rows of the
  previous result, of the neighbour sums and of the scale column, and from the whole weight and bias. A row of the
  sharpened layer depends on the same row of those three arrays only, so what point t writes back is block t of the
  layer of the whole arrays; the 20 blocks cover the array.
-/
import proofs.«177973_j70866960384012_1_alg».proof.Proof.Gen.KernelIdeal.Frame
import proofs.«177973_j70866960384012_1_alg».proof.Proof.Pay
import Idealize.ShloMosaic.Lib.Pipeline.Value

set_option maxRecDepth 16384

noncomputable section

namespace Cert.KernelIdeal.Hand

open Cert.KernelIdeal Cert.KernelIdeal.Gen Cert.HighPass
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_1 : (![0, 0] : Fin 2 → Nat) = fun _ => 0 := funext fun a => by fin_cases a <;> rfl
theorem zero1_1 : (![0] : Fin 1 → Nat) = fun _ => 0 := funext fun a => by fin_cases a <;> rfl

/-- The printed index maps over the grid: the row windows sit at block t, the weight and bias windows at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 ∧ win1_4.index t (0 : Fin 1) = 0
    ∧ win1_5.index t (0 : Fin 2) = t.val ∧ win1_5.index t (1 : Fin 2) = 0 :=
  (by decide +kernel : ∀ t : Fin grid1.N, _)

/-- Row p of the previous result's block at point t is row 5000·t + p of that array. -/
theorem iblk1_prev (c : Dev nD) (t : Fin cfg1.N) (p : Fin 5000) (k : Fin 64) (hp : 5000 * t.val + p.val < 100000) :
    (iblk1 V c 0 t : Vec Ideal S5000x64 .f32) (ix2 p k) = (V c main_v20 : Vec Ideal S100000x64 .f32) (ix2 ⟨5000 * t.val + p.val, hp⟩ k) := by
  obtain ⟨e0, e1, -⟩ := idx1 t
  unfold iblk1
  rw [View.read_apply]
  show V c main_v20 _ = V c main_v20 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 64 + 1 * k.val = k.val; rw [e1]; omega

/-- Row p of the neighbour sums' block at point t is row 5000·t + p of that array. -/
theorem iblk1_sums (c : Dev nD) (t : Fin cfg1.N) (p : Fin 5000) (k : Fin 64) (hp : 5000 * t.val + p.val < 100000) :
    (iblk1 V c 1 t : Vec Ideal S5000x64 .f32) (ix2 p k) = (V c main_v30 : Vec Ideal S100000x64 .f32) (ix2 ⟨5000 * t.val + p.val, hp⟩ k) := by
  obtain ⟨-, -, e0, e1, -⟩ := idx1 t
  unfold iblk1
  rw [View.read_apply]
  show V c main_v30 _ = V c main_v30 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 64 + 1 * k.val = k.val; rw [e1]; omega

/-- Entry p of the scale column's block at point t is entry 5000·t + p of the column. -/
theorem iblk1_scale (c : Dev nD) (t : Fin cfg1.N) (p : Fin 5000) (hp : 5000 * t.val + p.val < 100000) :
    (iblk1 V c 2 t : Vec Ideal S5000x1 .f32) (ix2 p (0 : Fin 1)) = (V c main_v19 : Vec Ideal S100000x1 .f32) (ix2 ⟨5000 * t.val + p.val, hp⟩ (0 : Fin 1)) := by
  obtain ⟨-, -, -, -, e0, e1, -⟩ := idx1 t
  unfold iblk1
  rw [View.read_apply]
  show V c main_v19 _ = V c main_v19 _
  congr 1
  funext a
  apply Fin.ext
  match a with
  | ⟨0, _⟩ => show win1_2.index t (0 : Fin 2) * 5000 + 1 * p.val = 5000 * t.val + p.val; rw [e0]; omega
  | ⟨1, _⟩ => show win1_2.index t (1 : Fin 2) * 1 + 1 * 0 = 0; rw [e1]

/-- The weight block at every point is the whole weight. -/
theorem iblk1_weight (c : Dev nD) (t : Fin cfg1.N) : (iblk1 V c 3 t : Vec Ideal S64x64 .f32) = V c main_arg4 := by
  obtain ⟨-, -, -, -, -, -, e0, e1, -⟩ := idx1 t
  funext y
  unfold iblk1
  rw [View.read_apply]
  show V c main_arg4 _ = V c main_arg4 _
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- The bias block at every point is the whole bias. -/
theorem iblk1_bias (c : Dev nD) (t : Fin cfg1.N) : (iblk1 V c 4 t : Vec Ideal S64 .f32) = V c main_arg5 := by
  obtain ⟨-, -, -, -, -, -, -, -, e0, -⟩ := idx1 t
  funext y
  unfold iblk1
  rw [View.read_apply]
  show V c main_arg5 _ = V c main_arg5 _
  congr 1
  funext a
  apply Fin.ext
  match a with
  | ⟨0, _⟩ => show win1_4.index t (0 : Fin 1) * 64 + 1 * (y 0).val = (y 0).val; rw [e0]; omega

/-- What point t writes back is block t of the sharpened layer of the whole arrays. -/
theorem flushed1 (c : Dev nD) (t : Fin cfg1.N) :
    (dat1 V c).flushed 5 t = ((cfg1.win 5).blk t).view.read (Elt Ideal)
      (layer (V c main_v20) (V c main_v30) (V c main_v19) (V c main_arg4) (V c main_arg5) : Vec Ideal S100000x64 .f32) := by
  show (cfg1.win 5).cut (grid1.coords t) ((dat1 V c).after 5 t) = _
  rw [after1_5]
  unfold out1_5
  rw [View.canon_unit_zero zero2_1]
  simp only [View.ld_unit_zero (S := S5000x64) zero2_1, View.ld_unit_zero (S := S5000x1) zero2_1, View.ld_unit_zero (S := S64x64) zero2_1, View.ld_unit_zero (S := S64) zero1_1]
  rw [Pay.layer_pay1, iblk1_weight, iblk1_bias]
  obtain ⟨-, -, -, -, -, -, -, -, -, e0, e1⟩ := idx1 t
  have ht : t.val < 20 := lt_of_lt_of_eq t.isLt N_1
  funext j
  obtain ⟨p, q, rfl⟩ : ∃ (p : Fin 5000) (q : Fin 64), j = ix2 p q := ⟨j 0, j 1, eq_ix2 j⟩
  have hp : 5000 * t.val + p.val < 100000 := by have := p.isLt; omega
  show layer (iblk1 V c 0 t) (iblk1 V c 1 t) (iblk1 V c 2 t) (V c main_arg4) (V c main_arg5) (ix2 p q)
    = layer (V c main_v20) (V c main_v30) (V c main_v19) (V c main_arg4) (V c main_arg5) (((cfg1.win 5).blk t).view.emb (ix2 p q))
  have he : ((cfg1.win 5).blk t).view.emb (ix2 p q) = ix2 (⟨5000 * t.val + p.val, hp⟩ : Fin 100000) q := by
    funext a
    apply Fin.ext
    match a with
    | ⟨0, _⟩ => show win1_5.index t (0 : Fin 2) * 5000 + 1 * p.val = 5000 * t.val + p.val; rw [e0]; omega
    | ⟨1, _⟩ => show win1_5.index t (1 : Fin 2) * 64 + 1 * q.val = q.val; rw [e1]; omega
  rw [he]
  exact layer_rows _ _ _ _ _ _ _ _ p _ (fun k => iblk1_prev V c t p k hp) (fun k => iblk1_sums V c t p k hp) (iblk1_scale V c t p hp) q

/-- An index of the result array lies in point t's block iff each coordinate lies in the block's range. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v31).slice (win1_5.rect t)).set ↔ _
  rw [View.set_slice_whole, Rect.mem_set_unit]
  exact Iff.rfl

/-- Row r of the result is written by point r / 5000. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have hlt : (i 0).val / 5000 < cfg1.N := by rw [hN]; omega
  refine ⟨⟨(i 0).val / 5000, hlt⟩, flush1_5 _, ?_⟩
  rw [mem_blk1]
  obtain ⟨-, -, -, -, -, -, -, -, -, e0, e1⟩ := idx1 ⟨(i 0).val / 5000, hlt⟩
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    rw [e1]; omega

/-- The second region's result array after its run. -/
theorem region1 (c : Dev nD) :
    (dat1 V c).arrAt 5 cfg1.N = (layer (V c main_v20) (V c main_v30) (V c main_v19) (V c main_arg4) (V c main_arg5) : Vec Ideal S100000x64 .f32) :=
  (dat1 V c).arrAt_eq_of_cover 5 _ (fun t _ => flushed1 V c t) cover1

end Cert.KernelIdeal.Hand

end
-- ==== Proof.Region2.lean ====
/-
  The third region's result array: the sharpened dense layer of the arrays the region finds.

  The grid has 20 points; point t stores rows 5000·t … 5000·t + 4999 of the result, computed from the same rows of the
  previous result, of the neighbour sums and of the scale column, and from the whole weight and bias. A row of the
  sharpened layer depends on the same row of those three arrays only, so what point t writes back is block t of the
  layer of the whole arrays; the 20 blocks cover the array.
-/
import proofs.«177973_j70866960384012_1_alg».proof.Proof.Gen.KernelIdeal.Frame
import proofs.«177973_j70866960384012_1_alg».proof.Proof.Pay
import Idealize.ShloMosaic.Lib.Pipeline.Value

set_option maxRecDepth 16384

noncomputable section

namespace Cert.KernelIdeal.Hand

open Cert.KernelIdeal Cert.KernelIdeal.Gen Cert.HighPass
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_2 : (![0, 0] : Fin 2 → Nat) = fun _ => 0 := funext fun a => by fin_cases a <;> rfl
theorem zero1_2 : (![0] : Fin 1 → Nat) = fun _ => 0 := funext fun a => by fin_cases a <;> rfl

/-- The printed index maps over the grid: the row windows sit at block t, the weight and bias windows at block 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 ∧ win2_4.index t (0 : Fin 1) = 0
    ∧ win2_5.index t (0 : Fin 2) = t.val ∧ win2_5.index t (1 : Fin 2) = 0 :=
  (by decide +kernel : ∀ t : Fin grid2.N, _)

/-- Row p of the previous result's block at point t is row 5000·t + p of that array. -/
theorem iblk2_prev (c : Dev nD) (t : Fin cfg2.N) (p : Fin 5000) (k : Fin 64) (hp : 5000 * t.val + p.val < 100000) :
    (iblk2 V c 0 t : Vec Ideal S5000x64 .f32) (ix2 p k) = (V c main_v31 : Vec Ideal S100000x64 .f32) (ix2 ⟨5000 * t.val + p.val, hp⟩ k) := by
  obtain ⟨e0, e1, -⟩ := idx2 t
  unfold iblk2
  rw [View.read_apply]
  show V c main_v31 _ = V c main_v31 _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 64 + 1 * k.val = k.val; rw [e1]; omega

/-- Row p of the neighbour sums' block at point t is row 5000·t + p of that array. -/
theorem iblk2_sums (c : Dev nD) (t : Fin cfg2.N) (p : Fin 5000) (k : Fin 64) (hp : 5000 * t.val + p.val < 100000) :
    (iblk2 V c 1 t : Vec Ideal S5000x64 .f32) (ix2 p k) = (V c main_v41 : Vec Ideal S100000x64 .f32) (ix2 ⟨5000 * t.val + p.val, hp⟩ k) := by
  obtain ⟨-, -, e0, e1, -⟩ := idx2 t
  unfold iblk2
  rw [View.read_apply]
  show V c main_v41 _ = V c main_v41 _
  congr 1
  funext a
  apply Fin.ext
  match a with
  | ⟨0, _⟩ => show win2_1.index t (0 : Fin 2) * 5000 + 1 * p.val = 5000 * t.val + p.val; rw [e0]; omega
  | ⟨1, _⟩ => show win2_1.index t (1 : Fin 2) * 64 + 1 * k.val = k.val; rw [e1]; omega

/-- Entry p of the scale column's block at point t is entry 5000·t + p of the column. -/
theorem iblk2_scale (c : Dev nD) (t : Fin cfg2.N) (p : Fin 5000) (hp : 5000 * t.val + p.val < 100000) :
    (iblk2 V c 2 t : Vec Ideal S5000x1 .f32) (ix2 p (0 : Fin 1)) = (V c main_v19 : Vec Ideal S100000x1 .f32) (ix2 ⟨5000 * t.val + p.val, hp⟩ (0 : Fin 1)) := by
  obtain ⟨-, -, -, -, e0, e1, -⟩ := idx2 t
  unfold iblk2
  rw [View.read_apply]
  show V c main_v19 _ = V c main_v19 _
  congr 1
  funext a
  apply Fin.ext
  match a with
  | ⟨0, _⟩ => show win2_2.index t (0 : Fin 2) * 5000 + 1 * p.val = 5000 * t.val + p.val; rw [e0]; omega
  | ⟨1, _⟩ => show win2_2.index t (1 : Fin 2) * 1 + 1 * 0 = 0; rw [e1]

/-- The weight block at every point is the whole weight. -/
theorem iblk2_weight (c : Dev nD) (t : Fin cfg2.N) : (iblk2 V c 3 t : Vec Ideal S64x64 .f32) = V c main_arg6 := by
  obtain ⟨-, -, -, -, -, -, e0, e1, -⟩ := idx2 t
  funext y
  unfold iblk2
  rw [View.read_apply]
  show V c main_arg6 _ = V c main_arg6 _
  congr 1
  funext a
  apply Fin.ext
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- The bias block at every point is the whole bias. -/
theorem iblk2_bias (c : Dev nD) (t : Fin cfg2.N) : (iblk2 V c 4 t : Vec Ideal S64 .f32) = V c main_arg7 := by
  obtain ⟨-, -, -, -, -, -, -, -, e0, -⟩ := idx2 t
  funext y
  unfold iblk2
  rw [View.read_apply]
  show V c main_arg7 _ = V c main_arg7 _
  congr 1
  funext a
  apply Fin.ext
  match a with
  | ⟨0, _⟩ => show win2_4.index t (0 : Fin 1) * 64 + 1 * (y 0).val = (y 0).val; rw [e0]; omega

/-- What point t writes back is block t of the sharpened layer of the whole arrays. -/
theorem flushed2 (c : Dev nD) (t : Fin cfg2.N) :
    (dat2 V c).flushed 5 t = ((cfg2.win 5).blk t).view.read (Elt Ideal)
      (layer (V c main_v31) (V c main_v41) (V c main_v19) (V c main_arg6) (V c main_arg7) : Vec Ideal S100000x64 .f32) := by
  show (cfg2.win 5).cut (grid2.coords t) ((dat2 V c).after 5 t) = _
  rw [after2_5]
  unfold out2_5
  rw [View.canon_unit_zero zero2_2]
  simp only [View.ld_unit_zero (S := S5000x64) zero2_2, View.ld_unit_zero (S := S5000x1) zero2_2, View.ld_unit_zero (S := S64x64) zero2_2, View.ld_unit_zero (S := S64) zero1_2]
  rw [Pay.layer_pay2, iblk2_weight, iblk2_bias]
  obtain ⟨-, -, -, -, -, -, -, -, -, e0, e1⟩ := idx2 t
  have ht : t.val < 20 := lt_of_lt_of_eq t.isLt N_2
  funext j
  obtain ⟨p, q, rfl⟩ : ∃ (p : Fin 5000) (q : Fin 64), j = ix2 p q := ⟨j 0, j 1, eq_ix2 j⟩
  have hp : 5000 * t.val + p.val < 100000 := by have := p.isLt; omega
  show layer (iblk2 V c 0 t) (iblk2 V c 1 t) (iblk2 V c 2 t) (V c main_arg6) (V c main_arg7) (ix2 p q)
    = layer (V c main_v31) (V c main_v41) (V c main_v19) (V c main_arg6) (V c main_arg7) (((cfg2.win 5).blk t).view.emb (ix2 p q))
  have he : ((cfg2.win 5).blk t).view.emb (ix2 p q) = ix2 (⟨5000 * t.val + p.val, hp⟩ : Fin 100000) q := by
    funext a
    apply Fin.ext
    match a with
    | ⟨0, _⟩ => show win2_5.index t (0 : Fin 2) * 5000 + 1 * p.val = 5000 * t.val + p.val; rw [e0]; omega
    | ⟨1, _⟩ => show win2_5.index t (1 : Fin 2) * 64 + 1 * q.val = q.val; rw [e1]; omega
  rw [he]
  exact layer_rows _ _ _ _ _ _ _ _ p _ (fun k => iblk2_prev V c t p k hp) (fun k => iblk2_sums V c t p k hp) (iblk2_scale V c t p hp) q

/-- An index of the result array lies in point t's block iff each coordinate lies in the block's range. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v42).slice (win2_5.rect t)).set ↔ _
  rw [View.set_slice_whole, Rect.mem_set_unit]
  exact Iff.rfl

/-- Row r of the result is written by point r / 5000. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  have hlt : (i 0).val / 5000 < cfg2.N := by rw [hN]; omega
  refine ⟨⟨(i 0).val / 5000, hlt⟩, flush2_5 _, ?_⟩
  rw [mem_blk2]
  obtain ⟨-, -, -, -, -, -, -, -, -, e0, e1⟩ := idx2 ⟨(i 0).val / 5000, hlt⟩
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hlt⟩ (1 : Fin 2) * 64 ≤ (i 1).val ∧ (i 1).val < win2_5.index ⟨(i 0).val / 5000, hlt⟩ (1 : Fin 2) * 64 + 64
    rw [e1]; omega

/-- The third region's result array after its run. -/
theorem region2 (c : Dev nD) :
    (dat2 V c).arrAt 5 cfg2.N = (layer (V c main_v31) (V c main_v41) (V c main_v19) (V c main_arg6) (V c main_arg7) : Vec Ideal S100000x64 .f32) :=
  (dat2 V c).arrAt_eq_of_cover 5 _ (fun t _ => flushed2 V c t) cover2

end Cert.KernelIdeal.Hand

end
-- ==== Proof.KernelTerms.lean ====
/-
  The host side of the kernel program, as named terms of the edge array.

  From the edge array E : [2, 1200000] the program makes, once: the source and target lists with one self loop per node
  appended (`src2`, `dst2` : [1300000]); the number of edges leaving each node and the number arriving at it, as sums of
  ones scattered through those lists (`deg`, `cnt` : [100000]); and the per-row factor (1 / cnt) · (1 / deg) as a column
  (`scale` : [100000, 1]). Between two regions it gathers the rows of the previous result at the sources (a negative
  index counted from the end) and adds them up at the targets (`agg`).
-/
import proofs.«177973_j70866960384012_1_alg».proof.Proof.Gen.KernelIdeal
import Idealize.ShloMosaic.PureOps.Ideal

noncomputable section

namespace Cert.KernelIdeal.Hand

open Cert.KernelIdeal Cert.KernelIdeal.Gen
open Idealize.ShloMosaic

/-- The source list with the self loops appended. -/
def src2 (E : IVec S2x1200000 32) : IVec S1300000 32 :=
  concatenate S1300000 0 [⟨S1200000, shapeCast S1200000 (extractStridedSlice S1x1200000 ![0, 0] E slices_S2x1200000_S1x1200000_0_0) shapeCasts_S1x1200000_S1200000⟩,
    ⟨S100000, iotaInDim S100000 32 0⟩] concatenates_S1200000_S100000_S1300000_d0

/-- The target list with the self loops appended. -/
def dst2 (E : IVec S2x1200000 32) : IVec S1300000 32 :=
  concatenate S1300000 0 [⟨S1200000, shapeCast S1200000 (extractStridedSlice S1x1200000 ![1, 0] E slices_S2x1200000_S1x1200000_1_0) shapeCasts_S1x1200000_S1200000⟩,
    ⟨S100000, iotaInDim S100000 32 0⟩] concatenates_S1200000_S100000_S1300000_d0

/-- How many list positions name each node: ones added up through the list, from zero. -/
def count (l : IVec S1300000 32) : FVec Ideal S100000 .f32 :=
  Host.scatterAdd (F := Ideal) scatter_S100000_S1300000x1_S1300000_n_0_0_1
    (broadcastInDim S100000 ![] bcast_S_S100000 (constant (F := Ideal) S_ .f32 0x00000000#32))
    (broadcastInDim S1300000x1 ![0] bcast_S1300000_S1300000x1_0 l)
    (broadcastInDim S1300000 ![] bcast_S_S1300000 (constant (F := Ideal) S_ .f32 0x3F800000#32))

/-- The per-row factor (1 / arrivals) · (1 / departures), as a column. -/
def scale (E : IVec S2x1200000 32) : FVec Ideal S100000x1 .f32 :=
  shapeCast S100000x1 (mulf
    (Host.divf (F := Ideal) (broadcastInDim S100000 ![] bcast_S_S100000 (constant (F := Ideal) S_ .f32 0x3F800000#32)) (count (dst2 E)))
    (Host.divf (F := Ideal) (broadcastInDim S100000 ![] bcast_S_S100000 (constant (F := Ideal) S_ .f32 0x3F800000#32)) (count (src2 E))))
    shapeCasts_S100000_S100000x1

/-- The neighbour sum: rows gathered at the sources, added up at the targets. -/
def agg (E : IVec S2x1200000 32) (Z : FVec Ideal S100000x64 .f32) : FVec Ideal S100000x64 .f32 :=
  Host.scatterAdd (F := Ideal) scatter_S100000x64_S1300000x1_S1300000x64_1_0_0_1
    (broadcastInDim S100000x64 ![] bcast_S_S100000x64 (constant (F := Ideal) S_ .f32 0x00000000#32))
    (broadcastInDim S1300000x1 ![0] bcast_S1300000_S1300000x1_0 (dst2 E))
    (Host.gather gather_S100000x64_S1300000x1_S1300000x64_1_0_n_n_0_1_164 Z
      (broadcastInDim S1300000x1 ![0] bcast_S1300000_S1300000x1_0
        (select (cmpi .slt (src2 E) (broadcastInDim S1300000 ![] bcast_S_S1300000 (constantI S_ 32 0#32)))
          (addi (src2 E) (broadcastInDim S1300000 ![] bcast_S_S1300000 (constantI S_ 32 100000#32))) (src2 E))))

end Cert.KernelIdeal.Hand

end
-- ==== Proof.Total.lean ====
/-
  The whole computation as one function of the argument arrays.

  z1 = dense(x, W1, b1); each later stage sharpens the previous result by the neighbour sums scaled per row and
  applies the next dense layer: z2 = layer(z1, agg z1, scale, W2, b2), z3 = layer(z2, agg z2, scale, W3, b3).
-/
import proofs.«177973_j70866960384012_1_alg».proof.Proof.KernelTerms
import proofs.«177973_j70866960384012_1_alg».proof.Proof.Spec

noncomputable section

namespace Cert.KernelIdeal.Hand

open Cert.KernelIdeal Cert.HighPass
open Idealize.ShloMosaic

/-- The result array as a function of the node array, the edge array and the three layers' weights and biases. -/
def total (x : FVec Ideal S100000x64 .f32) (E : IVec S2x1200000 32)
    (w1 : FVec Ideal S64x64 .f32) (b1 : FVec Ideal S64 .f32) (w2 : FVec Ideal S64x64 .f32) (b2 : FVec Ideal S64 .f32)
    (w3 : FVec Ideal S64x64 .f32) (b3 : FVec Ideal S64 .f32) : FVec Ideal S100000x64 .f32 :=
  layer (layer (dense x w1 b1) (agg E (dense x w1 b1)) (scale E) w2 b2)
    (agg E (layer (dense x w1 b1) (agg E (dense x w1 b1)) (scale E) w2 b2)) (scale E) w3 b3

end Cert.KernelIdeal.Hand

end
-- ==== Proof.KernelValue.lean ====
/-
  What the idealized kernel's result buffer holds after the run: the whole computation of the argument arrays.

  The frame folds the buffer contents through six segments. Walking the fold: the first stretch of host operations makes
  the edge lists and the scale column from the edge array; the first region leaves the dense layer of the node array; the
  second stretch leaves its neighbour sums; the second region leaves the sharpened layer of those; the third stretch and
  the third region repeat the step. A buffer that a segment does not write is carried through it unchanged.
-/
import proofs.«177973_j70866960384012_1_alg».proof.Proof.Gen.KernelIdeal.Frame
import proofs.«177973_j70866960384012_1_alg».proof.Proof.Region0
import proofs.«177973_j70866960384012_1_alg».proof.Proof.Region1
import proofs.«177973_j70866960384012_1_alg».proof.Proof.Region2
import proofs.«177973_j70866960384012_1_alg».proof.Proof.Total
import Idealize.ShloMosaic.Lib.StableHlo.Run

set_option maxRecDepth 16384

noncomputable section

namespace Cert.KernelIdeal.Hand

open Cert.KernelIdeal Cert.KernelIdeal.Gen Cert.HighPass
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-! ## The first stretch: what it makes, and the arguments it leaves alone -/

theorem W1_src (c : Dev nD) : W1 m ρ c (Proc.devRef .tc main_v5) = src2 (m ((c : Thread nD τ).loc main_arg1)) := by
  show StableHlo.after hostOps0 (W0 m ρ c) (Proc.devRef .tc main_v5) = _
  after_results
  all_goals rfl

theorem W1_dst (c : Dev nD) : W1 m ρ c (Proc.devRef .tc main_v6) = dst2 (m ((c : Thread nD τ).loc main_arg1)) := by
  show StableHlo.after hostOps0 (W0 m ρ c) (Proc.devRef .tc main_v6) = _
  after_results
  all_goals rfl

set_option maxHeartbeats 2000000 in
theorem W1_scale (c : Dev nD) : W1 m ρ c (Proc.devRef .tc main_v19) = scale (m ((c : Thread nD τ).loc main_arg1)) := by
  show StableHlo.after hostOps0 (W0 m ρ c) (Proc.devRef .tc main_v19) = _
  after_results_simp
  all_goals rfl

theorem W1_arg (c : Dev nD) (b : Ref sig .tc) (hb : StableHlo.after hostOps0 (W0 m ρ c) (Proc.devRef .tc b) = W0 m ρ c (Proc.devRef .tc b)) :
    W1 m ρ c (Proc.devRef .tc b) = m ((c : Thread nD τ).loc b) := hb.trans rfl

theorem W1_arg0 (c : Dev nD) : W1 m ρ c (Proc.devRef .tc main_arg0) = m ((c : Thread nD τ).loc main_arg0) :=
  W1_arg m ρ c _ (by after_results; all_goals rfl)
theorem W1_arg2 (c : Dev nD) : W1 m ρ c (Proc.devRef .tc main_arg2) = m ((c : Thread nD τ).loc main_arg2) :=
  W1_arg m ρ c _ (by after_results; all_goals rfl)
theorem W1_arg3 (c : Dev nD) : W1 m ρ c (Proc.devRef .tc main_arg3) = m ((c : Thread nD τ).loc main_arg3) :=
  W1_arg m ρ c _ (by after_results; all_goals rfl)
theorem W1_arg4 (c : Dev nD) : W1 m ρ c (Proc.devRef .tc main_arg4) = m ((c : Thread nD τ).loc main_arg4) :=
  W1_arg m ρ c _ (by after_results; all_goals rfl)
theorem W1_arg5 (c : Dev nD) : W1 m ρ c (Proc.devRef .tc main_arg5) = m ((c : Thread nD τ).loc main_arg5) :=
  W1_arg m ρ c _ (by after_results; all_goals rfl)
theorem W1_arg6 (c : Dev nD) : W1 m ρ c (Proc.devRef .tc main_arg6) = m ((c : Thread nD τ).loc main_arg6) :=
  W1_arg m ρ c _ (by after_results; all_goals rfl)
theorem W1_arg7 (c : Dev nD) : W1 m ρ c (Proc.devRef .tc main_arg7) = m ((c : Thread nD τ).loc main_arg7) :=
  W1_arg m ρ c _ (by after_results; all_goals rfl)

/-! ## The first region -/

/-- After the first region its result buffer holds the dense layer of the node array. -/
theorem W2_z1 (c : Dev nD) : W2 m ρ c (Proc.devRef .tc main_v20)
    = dense (m ((c : Thread nD τ).loc main_arg0)) (m ((c : Thread nD τ).loc main_arg2)) (m ((c : Thread nD τ).loc main_arg3)) := by
  have h := (W2_arr m ρ c 3).trans (region0 (V1 m ρ) c)
  rw [show V1 m ρ c main_arg0 = m ((c : Thread nD τ).loc main_arg0) from W1_arg0 m ρ c,
    show V1 m ρ c main_arg2 = m ((c : Thread nD τ).loc main_arg2) from W1_arg2 m ρ c,
    show V1 m ρ c main_arg3 = m ((c : Thread nD τ).loc main_arg3) from W1_arg3 m ρ c] at h
  exact h

theorem W2_src (c : Dev nD) : W2 m ρ c (Proc.devRef .tc main_v5) = src2 (m ((c : Thread nD τ).loc main_arg1)) :=
  (W2_of_ne m ρ c main_v5 (by decide)).trans (W1_src m ρ c)
theorem W2_dst (c : Dev nD) : W2 m ρ c (Proc.devRef .tc main_v6) = dst2 (m ((c : Thread nD τ).loc main_arg1)) :=
  (W2_of_ne m ρ c main_v6 (by decide)).trans (W1_dst m ρ c)
theorem W2_scale (c : Dev nD) : W2 m ρ c (Proc.devRef .tc main_v19) = scale (m ((c : Thread nD τ).loc main_arg1)) :=
  (W2_of_ne m ρ c main_v19 (by decide)).trans (W1_scale m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## The second stretch -/

/-- What the second stretch carries unchanged. -/
theorem carry1 (V : Valuation τ sig (Elt Ideal)) (b : Ref sig .tc)
    (hb : b = main_v5 ∨ b = main_v6 ∨ b = main_v19 ∨ b = main_v20 ∨ b = main_arg4 ∨ b = main_arg5 ∨ b = main_arg6 ∨ b = main_arg7) :
    StableHlo.after hostOps1 V (Proc.devRef .tc b) = V (Proc.devRef .tc b) := by
  rcases hb with rfl | rfl | rfl | rfl | rfl | rfl | rfl | rfl <;> (after_results; all_goals rfl)

/-- After the second stretch the sums buffer holds the neighbour sums of the first region's result. -/
theorem W3_sums (c : Dev nD) : W3 m ρ c (Proc.devRef .tc main_v30)
    = agg (m ((c : Thread nD τ).loc main_arg1))
        (dense (m ((c : Thread nD τ).loc main_arg0)) (m ((c : Thread nD τ).loc main_arg2)) (m ((c : Thread nD τ).loc main_arg3))) := by
  show StableHlo.after hostOps1 (W2 m ρ c) (Proc.devRef .tc main_v30) = _
  after_results
  rw [W2_z1, W2_src, W2_dst]
  rfl

/-! ## The second region -/

/-- After the second region its result buffer holds the sharpened layer. -/
theorem W4_z2 (c : Dev nD) : W4 m ρ c (Proc.devRef .tc main_v31)
    = layer (dense (m ((c : Thread nD τ).loc main_arg0)) (m ((c : Thread nD τ).loc main_arg2)) (m ((c : Thread nD τ).loc main_arg3)))
        (agg (m ((c : Thread nD τ).loc main_arg1))
          (dense (m ((c : Thread nD τ).loc main_arg0)) (m ((c : Thread nD τ).loc main_arg2)) (m ((c : Thread nD τ).loc main_arg3))))
        (scale (m ((c : Thread nD τ).loc main_arg1))) (m ((c : Thread nD τ).loc main_arg4)) (m ((c : Thread nD τ).loc main_arg5)) := by
  have h := (W4_arr m ρ c 5).trans (region1 (V3 m ρ) c)
  rw [show V3 m ρ c main_v20 = _ from (carry1 _ main_v20 (by simp)).trans (W2_z1 m ρ c),
    show V3 m ρ c main_v30 = _ from W3_sums m ρ c,
    show V3 m ρ c main_v19 = _ from (carry1 _ main_v19 (by simp)).trans (W2_scale m ρ c),
    show V3 m ρ c main_arg4 = _ from (carry1 _ main_arg4 (by simp)).trans (W2_arg4 m ρ c),
    show V3 m ρ c main_arg5 = _ from (carry1 _ main_arg5 (by simp)).trans (W2_arg5 m ρ c)] at h
  exact h

theorem W4_src (c : Dev nD) : W4 m ρ c (Proc.devRef .tc main_v5) = src2 (m ((c : Thread nD τ).loc main_arg1)) :=
  (W4_of_ne m ρ c main_v5 (by decide)).trans ((carry1 _ main_v5 (by simp)).trans (W2_src m ρ c))
theorem W4_dst (c : Dev nD) : W4 m ρ c (Proc.devRef .tc main_v6) = dst2 (m ((c : Thread nD τ).loc main_arg1)) :=
  (W4_of_ne m ρ c main_v6 (by decide)).trans ((carry1 _ main_v6 (by simp)).trans (W2_dst m ρ c))
theorem W4_arg6 (c : Dev nD) : W4 m ρ c (Proc.devRef .tc main_arg6) = m ((c : Thread nD τ).loc main_arg6) :=
  (W4_of_ne m ρ c main_arg6 (by decide)).trans ((carry1 _ main_arg6 (by simp)).trans (W2_arg6 m ρ c))
theorem W4_arg7 (c : Dev nD) : W4 m ρ c (Proc.devRef .tc main_arg7) = m ((c : Thread nD τ).loc main_arg7) :=
  (W4_of_ne m ρ c main_arg7 (by decide)).trans ((carry1 _ main_arg7 (by simp)).trans (W2_arg7 m ρ c))
/-- The scale column is an input of the second region: it leaves the region as it entered. -/
theorem W4_scale (c : Dev nD) : W4 m ρ c (Proc.devRef .tc main_v19) = scale (m ((c : Thread nD τ).loc main_arg1)) :=
  ((W4_arr m ρ c 2).trans (((dat1 (V3 m ρ) c).arrAt_in 2 rfl _).trans (A_eq1 (V3 m ρ) c 2))).trans
    ((carry1 _ main_v19 (by simp)).trans (W2_scale m ρ c))

/-! ## The third stretch and the third region -/

/-- What the third stretch carries unchanged. -/
theorem carry2 (V : Valuation τ sig (Elt Ideal)) (b : Ref sig .tc)
    (hb : b = main_v19 ∨ b = main_v31 ∨ b = main_arg6 ∨ b = main_arg7) :
    StableHlo.after hostOps2 V (Proc.devRef .tc b) = V (Proc.devRef .tc b) := by
  rcases hb with rfl | rfl | rfl | rfl <;> (after_results; all_goals rfl)

/-- After the third stretch the sums buffer holds the neighbour sums of the second region's result. -/
theorem W5_sums (c : Dev nD) : W5 m ρ c (Proc.devRef .tc main_v41)
    = agg (m ((c : Thread nD τ).loc main_arg1)) (W4 m ρ c (Proc.devRef .tc main_v31)) := by
  show StableHlo.after hostOps2 (W4 m ρ c) (Proc.devRef .tc main_v41) = _
  after_results
  rw [W4_src, W4_dst]
  rfl

/-- THE RESULT: after the last region the result buffer holds the whole computation of the argument arrays. -/
theorem result_eq (c : Dev nD) : W6 m ρ c (Proc.devRef .tc main_v42)
    = total (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  have h := (W6_arr m ρ c 5).trans (region2 (V5 m ρ) c)
  rw [show V5 m ρ c main_v31 = _ from (carry2 _ main_v31 (by simp)).trans (W4_z2 m ρ c),
    show V5 m ρ c main_v41 = _ from (W5_sums m ρ c).trans (congrArg _ (W4_z2 m ρ c)),
    show V5 m ρ c main_v19 = _ from (carry2 _ main_v19 (by simp)).trans (W4_scale m ρ c),
    show V5 m ρ c main_arg6 = _ from (carry2 _ main_arg6 (by simp)).trans (W4_arg6 m ρ c),
    show V5 m ρ c main_arg7 = _ from (carry2 _ main_arg7 (by simp)).trans (W4_arg7 m ρ c)] at h
  exact h

end Cert.KernelIdeal.Hand

end
-- ==== Proof.LibRowGather.lean ====
/-
  Rows gathered and scatter-added through an index column.

  For an array `H : [N, C]` and a column of start indices `idx : [E, 1]`, the gather that takes row `idx[e]` for every
  `e` reads `H` at the start index taken signed and clamped into `[0, N - 1]`; the same for a vector `D : [N]`. The
  scatter-add of updates `u : [E, C]` through a column of indices adds `u[e, c]` to element `(idx[e], c)` when the
  signed index lies in `[0, N)` and drops it otherwise. So an update that lands on row `n` has index word `n`, and
  a factor that depends only on the landing row — nonnegative and not `+∞`, so that it distributes over a sum of
  extended reals — moves out of the scatter-add.
-/
import Mathlib
import Idealize.ShloMosaic.PureOps.Ideal
import Idealize.ShloMosaic.PureOps.Ideal.Laws
import Idealize.ShloMosaic.Lib.ValueIdx

noncomputable section

open scoped BigOperators

namespace Cert.LibRowGather

open Idealize.ShloMosaic Idealize.ShloMosaic.ValueIdx

variable {α : Type}

/-- Dimension numbers of `D[idx]` for `D : [N]`, `idx : [E, 1]`, result `[E]`. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of `H[idx]` (whole rows) for `H : [N, C]`, `idx : [E, 1]`, result `[E, C]`. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of the row scatter: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The index-column position of edge `e`. -/
abbrev edgeIdx {E : Nat} (e : Fin E) : (⟨2, ![E, 1]⟩ : Shape).Idx := ix2 e (0 : Fin 1)

/-- A start-index word read signed and clamped into `[0, N - 1]`. -/
def rowOf (N : Nat) (hN : 0 < N) {w : Nat} (b : BitVec w) : Fin N := ⟨min b.toInt.toNat (N - 1), by omega⟩

/-- A word whose signed value is a row number below `N` clamps to that row. -/
theorem rowOf_of_toInt {N : Nat} (hN : 0 < N) {w : Nat} (b : BitVec w) (n : Fin N) (h : b.toInt = (n.val : ℤ)) :
    rowOf N hN b = n := by
  refine Fin.ext ?_
  unfold rowOf
  show min b.toInt.toNat (N - 1) = n.val
  rw [h, Int.toNat_natCast]
  have := n.isLt
  omega

/-- The vector gather at edge `e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf N hN (idx (edgeIdx e)))) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = edgeIdx e := by
    funext b; refine Fin.ext ?_
    match b with
    | ⟨0, _⟩ => rfl
    | ⟨1, _⟩ => rfl
  rw [hsi]
  rfl

/-- The row gather at edge `e`, lane `c`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (rowOf N hN (idx (edgeIdx e))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = edgeIdx e := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (show ¬ (1 : Fin 2) ∈ (rowDims N E C wf).startIndexMap from
        (by decide : ¬ (1 : Fin 2) ∈ ([0] : List (Fin 2))))]
    have ho : (rowDims N E C wf).offCoord (ix2 e c) 1 = c.val := by
      unfold GatherDims.offCoord
      rw [dif_pos (show (1 : Fin 2) ∈ (rowDims N E C wf).sKept from
        (GatherDims.mem_sKept _ _).mpr ⟨(by decide : ¬ (1 : Fin 2) ∈ ([0] : List (Fin 2))), List.not_mem_nil⟩)]
      rfl
    rw [hs, ho, Nat.zero_add]

/-- An update `(e, c)` that the row scatter lands on element `(n, c')` has index word `n` (signed) and `c = c'`. -/
theorem scatter_row_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C)
    (h : (rowScatterDims N E C wf).resultIdx? (ix2 e c) idx = some (ix2 n c')) :
    (idx (edgeIdx e)).toInt = (n.val : ℤ) ∧ c = c' := by
  have hs0 : (rowScatterDims N E C wf).start (ix2 e c) idx 0 = (idx (edgeIdx e)).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = edgeIdx e := by
      funext b; refine Fin.ext ?_
      match b with
      | ⟨0, _⟩ => rfl
      | ⟨1, _⟩ => rfl
    rw [hsi]
  have hs1 : (rowScatterDims N E C wf).start (ix2 e c) idx 1 = 0 := by
    unfold ScatterDims.start
    rw [dif_neg (show ¬ (1 : Fin 2) ∈ (rowScatterDims N E C wf).scatterDimsToOperandDims from
      (by decide : ¬ (1 : Fin 2) ∈ ([0] : List (Fin 2))))]
  have hw0 : (rowScatterDims N E C wf).window (ix2 e c) 0 = 0 := by
    unfold ScatterDims.window
    rw [dif_neg (show ¬ (0 : Fin 2) ∈ (rowScatterDims N E C wf).sKept from
      (by decide : ¬ (0 : Fin 2) ∈ (List.finRange 2).filter (fun a => a ∉ ([0] : List (Fin 2)))))]
  have hw1 : (rowScatterDims N E C wf).window (ix2 e c) 1 = c.val := by
    unfold ScatterDims.window
    rw [dif_pos (show (1 : Fin 2) ∈ (rowScatterDims N E C wf).sKept from
      (by decide : (1 : Fin 2) ∈ (List.finRange 2).filter (fun a => a ∉ ([0] : List (Fin 2)))))]
    rfl
  unfold ScatterDims.resultIdx? at h
  split at h
  · rename_i hall
    have h' := Option.some.inj h
    have h0 : ((rowScatterDims N E C wf).start (ix2 e c) idx 0 + (rowScatterDims N E C wf).window (ix2 e c) 0).toNat
        = n.val := congrArg (fun f => (f 0).val) h'
    have h1 : ((rowScatterDims N E C wf).start (ix2 e c) idx 1 + (rowScatterDims N E C wf).window (ix2 e c) 1).toNat
        = c'.val := congrArg (fun f => (f 1).val) h'
    have ha0 := (hall 0).1
    rw [hs0, hw0] at h0 ha0
    rw [hs1, hw1] at h1
    refine ⟨?_, Fin.ext ?_⟩
    · omega
    · omega
  · exact absurd h (by simp)

/-- A nonnegative factor other than `+∞` distributes over a finite sum of extended reals. -/
theorem mul_sum_of_nonneg_ne_top {ι : Type*} (s : Finset ι) (f : ι → EReal) {a : EReal} (h0 : 0 ≤ a) (ht : a ≠ ⊤) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- A factor `a` (nonnegative, not `+∞`) carried by every update that lands on element `i` moves out of the
    scatter-add into zero at `i`. -/
theorem hostScatterAdd_scale {s si su : Shape} (d : ScatterDims s si su) {w : Nat} (Z : s.Idx → EReal) (idx : IVec si w)
    (f g : su.Idx → EReal) (i : s.Idx) (hZ : Z i = 0) {a : EReal} (h0 : 0 ≤ a) (ht : a ≠ ⊤)
    (hfg : ∀ j, d.resultIdx? j idx = some i → f j = a * g j) :
    Ideal.hostScatterAdd d Z idx f i = a * Ideal.hostScatterAdd d Z idx g i := by
  show Z i + _ = a * (Z i + _)
  rw [hZ, zero_add, zero_add, mul_sum_of_nonneg_ne_top _ _ h0 ht]
  refine Finset.sum_congr rfl fun j hj => ?_
  exact hfg j (Finset.mem_filter.mp hj).2

/-- Equal updates on what lands at `i` give equal scatter-adds at `i`. -/
theorem hostScatterAdd_congr {s si su : Shape} (d : ScatterDims s si su) {w : Nat} (Z Z' : s.Idx → EReal) (idx : IVec si w)
    (f g : su.Idx → EReal) (i : s.Idx) (hZ : Z i = Z' i)
    (hfg : ∀ j, d.resultIdx? j idx = some i → f j = g j) :
    Ideal.hostScatterAdd d Z idx f i = Ideal.hostScatterAdd d Z' idx g i := by
  show Z i + _ = Z' i + _
  rw [hZ]
  congr 1
  refine Finset.sum_congr rfl fun j hj => ?_
  exact hfg j (Finset.mem_filter.mp hj).2

/-- The reciprocal square root of an extended real that is at least one is a nonnegative extended real other than `+∞`. -/
theorem rsqrt_of_one_le (y : EReal) (h : 1 ≤ y) : 0 ≤ Ideal.rsqrt y ∧ Ideal.rsqrt y ≠ ⊤ := by
  induction y using EReal.rec with
  | bot => exact absurd h (not_le.mpr (EReal.bot_lt_coe 1))
  | top => exact ⟨le_refl _, EReal.zero_ne_top⟩
  | coe r =>
    have hr : (1 : ℝ) ≤ r := by exact_mod_cast h
    have h1 : ¬ r < 0 := by linarith
    have h2 : ¬ r = 0 := by intro h0; rw [h0] at hr; linarith
    have hv : Ideal.rsqrt (r : EReal) = (((Real.sqrt r)⁻¹ : ℝ) : EReal) := by
      show (if r < 0 then ⊥ else if r = 0 then ⊤ else (((Real.sqrt r)⁻¹ : ℝ) : EReal)) = _
      rw [if_neg h1, if_neg h2]
    rw [hv]
    exact ⟨EReal.coe_nonneg.mpr (inv_nonneg.mpr (Real.sqrt_nonneg r)), EReal.coe_ne_top _⟩

end Cert.LibRowGather

end
-- ==== Proof.LibVecScatterLands.lean ====
/-
  A scatter-add into a vector through an index column: where an update lands, and a lower bound for an entry.

  For an operand [N], indices [E, 1] and updates [E] (no window axes: update e is one number), update e lands on
  entry n when the signed index word of e is n. Over the extended reals the scatter-add at an entry is the operand's entry
  plus the sum of the updates that land there; so when the operand's entry and all updates are nonnegative, every update
  that lands on an entry is a lower bound for it. (Counting with updates all equal to one, an entry is at least one as
  soon as one update lands on it.)
-/
import Mathlib
import Idealize.ShloMosaic.PureOps.Ideal
import Idealize.ShloMosaic.PureOps.Ideal.Laws
import Idealize.ShloMosaic.Lib.ValueIdx
import proofs.«177973_j70866960384012_1_alg».proof.Proof.LibRowGather

noncomputable section

open scoped BigOperators

namespace Cert.LibVecScatterLands

open Idealize.ShloMosaic Idealize.ShloMosaic.ValueIdx Cert.LibRowGather

/-- Dimension numbers of the vector scatter: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat}

/-- Update e whose signed index word is n lands on entry n. -/
theorem lands_of_word (wf : ScatterDims.WF ⟨1, ![N]⟩ ⟨2, ![E, 1]⟩ ⟨1, ![E]⟩ [] [0] [0] 1)
    (idx : IVec ⟨2, ![E, 1]⟩ w) (e : Fin E) (n : Fin N) (hw : (idx (edgeIdx e)).toInt = (n.val : ℤ)) :
    (vecScatterDims N E wf).resultIdx? (ix1 e) idx = some (ix1 n) := by
  have hs : (vecScatterDims N E wf).start (ix1 e) idx 0 = (idx (edgeIdx e)).toInt := by
    unfold ScatterDims.start
    rw [dif_pos (show (0 : Fin 1) ∈ (vecScatterDims N E wf).scatterDimsToOperandDims from List.mem_singleton.mpr rfl)]
    have hsi : (vecScatterDims N E wf).siIdx (ix1 e)
        ⟨List.idxOf (0 : Fin 1) (vecScatterDims N E wf).scatterDimsToOperandDims,
          List.idxOf_lt_length_iff.2 (List.mem_singleton.mpr rfl)⟩ = edgeIdx e := by
      funext b; refine Fin.ext ?_
      match b with
      | ⟨0, _⟩ => rfl
      | ⟨1, _⟩ => rfl
    rw [hsi]
  have hwin : (vecScatterDims N E wf).window (ix1 e) 0 = 0 := by
    unfold ScatterDims.window
    rw [dif_neg (show ¬ (0 : Fin 1) ∈ (vecScatterDims N E wf).sKept from
      (by decide : ¬ (0 : Fin 1) ∈ (List.finRange 1).filter (fun a => a ∉ ([0] : List (Fin 1)))))]
  have hall : ∀ a, 0 ≤ (vecScatterDims N E wf).start (ix1 e) idx a + (vecScatterDims N E wf).window (ix1 e) a
      ∧ (vecScatterDims N E wf).start (ix1 e) idx a + (vecScatterDims N E wf).window (ix1 e) a
        < (⟨1, ![N]⟩ : Shape).size a := by
    intro a
    obtain rfl : a = 0 := Subsingleton.elim _ _
    have hn := n.isLt
    show 0 ≤ (vecScatterDims N E wf).start (ix1 e) idx 0 + ((vecScatterDims N E wf).window (ix1 e) 0 : ℤ)
      ∧ (vecScatterDims N E wf).start (ix1 e) idx 0 + ((vecScatterDims N E wf).window (ix1 e) 0 : ℤ) < (N : ℤ)
    rw [hs, hwin, hw]; constructor <;> omega
  unfold ScatterDims.resultIdx?
  rw [dif_pos hall]
  refine congrArg some ?_
  funext a
  obtain rfl : a = 0 := Subsingleton.elim _ _
  refine Fin.ext ?_
  show ((vecScatterDims N E wf).start (ix1 e) idx 0 + ((vecScatterDims N E wf).window (ix1 e) 0 : ℤ)).toNat = n.val
  rw [hs, hwin, hw]; omega

/-- The same for any record with the vector-scatter fields. -/
theorem lands_of_word' (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (idx : IVec ⟨2, ![E, 1]⟩ w) (e : Fin E) (n : Fin N) (hw : (idx (edgeIdx e)).toInt = (n.val : ℤ)) :
    d.resultIdx? (ix1 e) idx = some (ix1 n) := by
  obtain ⟨uw, iw, sd, iv, wf⟩ := d
  dsimp only at h1 h2 h3 h4
  subst h1 h2 h3 h4
  exact lands_of_word wf idx e n hw

/-- With a nonnegative operand entry and nonnegative updates, an update that lands on an entry is at most the
    scatter-add's entry there. -/
theorem le_hostScatterAdd_of_lands {s si su : Shape} (d : ScatterDims s si su) (Z : s.Idx → EReal) (idx : IVec si w)
    (u : su.Idx → EReal) (i : s.Idx) (hZ : 0 ≤ Z i) (hu : ∀ j, 0 ≤ u j) (j₀ : su.Idx)
    (hl : d.resultIdx? j₀ idx = some i) : u j₀ ≤ Ideal.hostScatterAdd d Z idx u i := by
  classical
  show u j₀ ≤ Z i + ∑ j ∈ Finset.univ.filter (fun j => d.resultIdx? j idx = some i), u j
  have h1 : u j₀ ≤ ∑ j ∈ Finset.univ.filter (fun j => d.resultIdx? j idx = some i), u j :=
    Finset.single_le_sum (f := u) (fun j _ => hu j) (Finset.mem_filter.mpr ⟨Finset.mem_univ _, hl⟩)
  exact h1.trans (le_add_of_nonneg_left hZ)

/-- The same for the host's scatter-add of arrays of extended reals. -/
theorem le_scatterAdd_of_lands {s si su : Shape} {φ : FTy} (d : ScatterDims s si su) (Z : FVec Ideal s φ) (idx : IVec si w)
    (u : FVec Ideal su φ) (i : s.Idx) (hZ : 0 ≤ Z i) (hu : ∀ j, 0 ≤ u j) (j₀ : su.Idx)
    (hl : d.resultIdx? j₀ idx = some i) : u j₀ ≤ Host.scatterAdd (F := Ideal) d Z idx u i :=
  le_hostScatterAdd_of_lands d Z idx u i hZ hu j₀ hl

end Cert.LibVecScatterLands

end
-- ==== Proof.LibConcatTail.lean ====
/-
  The second piece of a concatenation of two vectors.

  A vector [T] made by joining a vector [A] and a vector [B] reads, at position A + n with n < B, the second vector at n.
-/
import Idealize.ShloMosaic.Lib.ValueIdx
import Idealize.ShloMosaic.Lib.Pipeline.Value

noncomputable section

namespace Cert.LibConcatTail

open Idealize.ShloMosaic Idealize.ShloMosaic.ValueIdx

variable {α : Type}

/-- Position A + n of the join of [A] and [B] is position n of the second vector. -/
theorem concatenate_vec_tail {A B T : Nat} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1)) (n : Fin B) (j : Fin T)
    (hj : j.val = A + n.val) :
    concatenate ⟨1, ![T]⟩ (0 : Fin 1) [⟨⟨1, ![A]⟩, x₁⟩, ⟨⟨1, ![B]⟩, x₂⟩] h (ix1 j) = x₂ (ix1 n) :=
  concatenate_pair_apply_right (0 : Fin 1) x₁ x₂ h (ix1 j) rfl rfl (ix1 n)
    (fun b hb => absurd (Subsingleton.elim _ _) hb) (by show n.val + A = j.val; omega)

end Cert.LibConcatTail

end
-- ==== Proof.LibRecipForms.lean ====
/-
  Quotients by nonzero extended reals as products with reciprocals, and two small readings that go with counts.

  Over the extended reals the quotient x / a for a ≠ 0 is x · a⁻¹ (`div_of_ne_zero`). Hence dividing by a and then by b,
  both nonzero, is multiplying by (1 / a) · (1 / b) — associativity of the product only, so it holds for an infinite x as
  well (`quot_quot_eq_mul_recips`). The f32 word 0x3F800000 is one (`one_word`). A vector [E] broadcast to a column
  [E, 1] (the host's form, dims = [0]) reads at (e, 0) the vector's entry e (`col_of_vec`).
-/
import Mathlib
import Idealize.ShloMosaic.PureOps.Ideal
import Idealize.ShloMosaic.PureOps.Ideal.Laws
import Idealize.ShloMosaic.Lib.ValueIdx
import Idealize.ShloMosaic.Lib.Pipeline.Value

noncomputable section

namespace Cert.LibRecipForms

open Idealize.ShloMosaic Idealize.ShloMosaic.ValueIdx

/-- For a nonzero divisor the quotient of extended reals is the product with the inverse. -/
theorem div_of_ne_zero (x a : EReal) (ha : a ≠ 0) : Ideal.div x a = x * a⁻¹ := by
  unfold Ideal.div
  exact if_neg ha

/-- For nonzero divisors, dividing twice is multiplying by the product of the two reciprocals — by associativity of the
    product of extended reals, so also for an infinite dividend. -/
theorem quot_quot_eq_mul_recips (x a b : EReal) (ha : a ≠ 0) (hb : b ≠ 0) :
    Ideal.div (Ideal.div x a) b = x * (Ideal.div 1 a * Ideal.div 1 b) := by
  rw [div_of_ne_zero _ _ hb, div_of_ne_zero _ _ ha, div_of_ne_zero _ _ ha, div_of_ne_zero _ _ hb, one_mul, one_mul, mul_assoc]

/-- The f32 word 0x3F800000 is one. -/
theorem one_word : Ideal.ofBits .f32 0x3F800000#32 = 1 := by
  simp [Ideal.ofBits, Ideal.ieee, -EReal.coe_mul]; norm_num

/-- A vector [E] broadcast to a column [E, 1] (the host's form) reads its entry of the row. -/
theorem col_of_vec {α : Type} {E : Nat} (v : (⟨1, ![E]⟩ : Shape).Idx → α)
    (h : (⟨1, ![E]⟩ : Shape).BroadcastsInDim ⟨2, ![E, 1]⟩ (![0] : Fin 1 → Fin 2)) (e : Fin E) :
    broadcastInDim ⟨2, ![E, 1]⟩ ![0] h v (ix2 e (0 : Fin 1)) = v (ix1 e) :=
  broadcastInDim_apply _ h v (ix2 e (0 : Fin 1)) (ix1 e) fun a => by
    match a with
    | ⟨0, _⟩ =>
      show e.val = if E = 1 then 0 else e.val
      split
      · have := e.isLt; omega
      · rfl

end Cert.LibRecipForms

end
-- ==== Proof.Counts.lean ====
/-
  Every node is named at least once by each edge list, so both counts are nonzero.

  The lists end with one self loop per node: position 1200000 + n holds the word of n. A scatter-add of ones from zero at
  entry n is at least any one update that lands on n, and the self loop's update lands there; so the count at n is at
  least one, hence not zero.
-/
import proofs.«177973_j70866960384012_1_alg».proof.Proof.KernelTerms
import proofs.«177973_j70866960384012_1_alg».proof.Proof.LibVecScatterLands
import proofs.«177973_j70866960384012_1_alg».proof.Proof.LibConcatTail
import proofs.«177973_j70866960384012_1_alg».proof.Proof.LibRowOps
import proofs.«177973_j70866960384012_1_alg».proof.Proof.LibRecipForms
import Idealize.ShloMosaic.Lib.WordArith
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx Cert.LibRowGather Cert.LibRecipForms

/-- Position 1200000 + n of the source list is node n's self loop. -/
theorem src2_loop (E : IVec S2x1200000 32) (n : Fin 100000) (j : Fin 1300000) (hj : j.val = 1200000 + n.val) :
    src2 E (ix1 j) = BitVec.ofNat 32 n.val := by
  unfold src2
  exact Cert.LibConcatTail.concatenate_vec_tail _ _ _ n j hj

/-- Position 1200000 + n of the target list is node n's self loop. -/
theorem dst2_loop (E : IVec S2x1200000 32) (n : Fin 100000) (j : Fin 1300000) (hj : j.val = 1200000 + n.val) :
    dst2 E (ix1 j) = BitVec.ofNat 32 n.val := by
  unfold dst2
  exact Cert.LibConcatTail.concatenate_vec_tail _ _ _ n j hj

/-- A scatter-add into a zero entry of updates that are all one is at least one where an update lands. -/
theorem one_le_of_lands (Z : FVec Ideal S100000 .f32) (idx : IVec S1300000x1 32) (u : FVec Ideal S1300000 .f32)
    (n : Fin 100000) (j : Fin 1300000) (hZ : Z (ix1 n) = 0) (hu : ∀ i, u i = 1)
    (hl : scatter_S100000_S1300000x1_S1300000_n_0_0_1.resultIdx? (ix1 j) idx = some (ix1 n)) :
    1 ≤ Host.scatterAdd (F := Ideal) scatter_S100000_S1300000x1_S1300000_n_0_0_1 Z idx u (ix1 n) := by
  have h := Cert.LibVecScatterLands.le_scatterAdd_of_lands _ Z idx u (ix1 n) (by rw [hZ])
    (fun i => by rw [hu i]; exact zero_le_one) (ix1 j) hl
  rwa [hu] at h

/-- The zero splat reads zero, the splat of ones reads one. -/
theorem zeros_apply (i : S100000.Idx) :
    broadcastInDim S100000 ![] bcast_S_S100000 (constant (F := Ideal) S_ .f32 0x00000000#32) i = 0 :=
  (Cert.LibRowOps.scalar_bcast_host _ _ i).trans Ideal.ofBits_zero_f32
theorem ones_apply (i : S1300000.Idx) :
    broadcastInDim S1300000 ![] bcast_S_S1300000 (constant (F := Ideal) S_ .f32 0x3F800000#32) i = 1 :=
  (Cert.LibRowOps.scalar_bcast_host _ _ i).trans one_word

/-- A list whose position j names n counts n at least once. -/
theorem one_le_count (l : IVec S1300000 32) (n : Fin 100000) (j : Fin 1300000)
    (hl : l (ix1 j) = BitVec.ofNat 32 n.val) : 1 ≤ count l (ix1 n) := by
  have hn : n.val < 2 ^ 31 := by have := n.isLt; omega
  have hw : (broadcastInDim S1300000x1 ![0] bcast_S1300000_S1300000x1_0 l (edgeIdx j)).toInt = (n.val : ℤ) := by
    rw [col_of_vec, hl]; exact WordArith.toInt_ofNat_small _ hn
  have hland := Cert.LibVecScatterLands.lands_of_word' scatter_S100000_S1300000x1_S1300000_n_0_0_1 rfl rfl rfl rfl
    (broadcastInDim S1300000x1 ![0] bcast_S1300000_S1300000x1_0 l) j n hw
  exact one_le_of_lands _ _ _ n j (zeros_apply _) ones_apply hland

/-- Both counts are nonzero at every node. -/
theorem count_src_ne_zero (E : IVec S2x1200000 32) (n : Fin 100000) : count (src2 E) (ix1 n) ≠ 0 := by
  have h := one_le_count (src2 E) n ⟨1200000 + n.val, by have := n.isLt; omega⟩ (src2_loop E n _ rfl)
  intro h0
  rw [h0] at h
  exact absurd h (not_le.mpr zero_lt_one)

theorem count_dst_ne_zero (E : IVec S2x1200000 32) (n : Fin 100000) : count (dst2 E) (ix1 n) ≠ 0 := by
  have h := one_le_count (dst2 E) n ⟨1200000 + n.val, by have := n.isLt; omega⟩ (dst2_loop E n _ rfl)
  intro h0
  rw [h0] at h
  exact absurd h (not_le.mpr zero_lt_one)

end Cert.KernelIdeal.Hand

end
-- ==== Proof.RefValue.lean ====
/-
  What the idealized reference computes: the same whole computation of the argument arrays.

  Stage by stage the reference's operations are read as the layers of the specification. Its dense layers are the host's
  product, the bias broadcast down the rows and a maximum with zero. Its high-pass step divides the neighbour sums by the
  arrival count and then by the departure count, each broadcast across the lanes; since both counts are nonzero this is
  the product with the per-row factor (1 / arrivals) · (1 / departures). Its edge lists, counts, gathers and scatter-adds
  are the same operations of the same operands as the other program's.
-/
import proofs.«177973_j70866960384012_1_alg».proof.Proof.Gen.ReferenceIdeal.Read
import proofs.«177973_j70866960384012_1_alg».proof.Proof.Total
import proofs.«177973_j70866960384012_1_alg».proof.Proof.Counts
import proofs.«177973_j70866960384012_1_alg».proof.Proof.LibRowOps
import proofs.«177973_j70866960384012_1_alg».proof.Proof.LibRecipForms

set_option maxRecDepth 16384

noncomputable section

open scoped BigOperators

namespace Cert.ReferenceIdeal.Hand

open Cert.ReferenceIdeal Cert.ReferenceIdeal.Gen Cert.ReferenceIdeal.Read Cert.HighPass
open Idealize.ShloMosaic Idealize.ShloMosaic.ValueIdx

/-- The host's dense layer: product, bias broadcast down the rows, maximum with zero. -/
theorem host_dense (x : FVec Ideal S100000x64 .f32) (w : FVec Ideal S64x64 .f32) (b : FVec Ideal S64 .f32) :
    maximumf (addf (Host.dotGeneral (F := Ideal) dot_S100000x64_S64x64_S100000x64_1_0_0_1_n_n none x w)
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
    = dense x w b := by
  refine ext_ix2 fun r c => ?_
  rw [dense_ix2]
  exact congrArg₂ max (congrArg₂ (· + ·) (Cert.LibRowOps.dot_entry _ rfl x w r c) (Cert.LibRowOps.bias_rows_host b _ _ r c))
    (Cert.LibRowOps.scalar_bcast_host _ _ _)

/-- A count broadcast to a column and then across the lanes reads, at (r, k), the count of row r. -/
theorem count_lanes (v : FVec Ideal S100000 .f32) (r : Fin 100000) (k : Fin 64) :
    broadcastInDim S100000x64 ![0, 1] bcast_S100000x1_S100000x64_0_1 (broadcastInDim S100000x1 ![0] bcast_S100000_S100000x1_0 v) (ix2 r k)
      = v (ix1 r) :=
  (Cert.LibRowOps.col_bcast_host _ _ r k).trans (Cert.LibRecipForms.col_of_vec v _ r)

/-- The reference's high-pass step at an entry is the specification's, for nonzero counts. -/
theorem host_sharpen (z s : FVec Ideal S100000x64 .f32) (cnt deg one1 one2 : FVec Ideal S100000 .f32)
    (h1 : ∀ i, one1 i = 1) (h2 : ∀ i, one2 i = 1)
    (hc : ∀ n : Fin 100000, cnt (ix1 n) ≠ 0) (hd : ∀ n : Fin 100000, deg (ix1 n) ≠ 0)
    (hcast : S100000.ShapeCasts S100000x1) (r : Fin 100000) (k : Fin 64) :
    subf z (Host.divf (F := Ideal) (Host.divf (F := Ideal) s
        (broadcastInDim S100000x64 ![0, 1] bcast_S100000x1_S100000x64_0_1 (broadcastInDim S100000x1 ![0] bcast_S100000_S100000x1_0 cnt)))
        (broadcastInDim S100000x64 ![0, 1] bcast_S100000x1_S100000x64_0_1 (broadcastInDim S100000x1 ![0] bcast_S100000_S100000x1_0 deg))) (ix2 r k)
      = sharpen z s (shapeCast S100000x1 (mulf (Host.divf (F := Ideal) one1 cnt) (Host.divf (F := Ideal) one2 deg)) hcast) (ix2 r k) := by
  rw [sharpen_ix2, Cert.LibRowReduce.shapeCast_col_apply]
  show z (ix2 r k) - Ideal.div (Ideal.div (s (ix2 r k)) (broadcastInDim S100000x64 ![0, 1] bcast_S100000x1_S100000x64_0_1 (broadcastInDim S100000x1 ![0] bcast_S100000_S100000x1_0 cnt) (ix2 r k)))
      (broadcastInDim S100000x64 ![0, 1] bcast_S100000x1_S100000x64_0_1 (broadcastInDim S100000x1 ![0] bcast_S100000_S100000x1_0 deg) (ix2 r k))
    = z (ix2 r k) - s (ix2 r k) * (Ideal.div (one1 (ix1 r)) (cnt (ix1 r)) * Ideal.div (one2 (ix1 r)) (deg (ix1 r)))
  rw [count_lanes, count_lanes, h1, h2, Cert.LibRecipForms.quot_quot_eq_mul_recips _ _ _ (hc r) (hd r)]

/-- The reference's sharpened dense layer. -/
theorem host_layer (z s : FVec Ideal S100000x64 .f32) (cnt deg one1 one2 : FVec Ideal S100000 .f32)
    (h1 : ∀ i, one1 i = 1) (h2 : ∀ i, one2 i = 1)
    (hc : ∀ n : Fin 100000, cnt (ix1 n) ≠ 0) (hd : ∀ n : Fin 100000, deg (ix1 n) ≠ 0)
    (hcast : S100000.ShapeCasts S100000x1) (w : FVec Ideal S64x64 .f32) (b : FVec Ideal S64 .f32) :
    maximumf (addf (Host.dotGeneral (F := Ideal) dot_S100000x64_S64x64_S100000x64_1_0_0_1_n_n none
        (subf z (Host.divf (F := Ideal) (Host.divf (F := Ideal) s
          (broadcastInDim S100000x64 ![0, 1] bcast_S100000x1_S100000x64_0_1 (broadcastInDim S100000x1 ![0] bcast_S100000_S100000x1_0 cnt)))
          (broadcastInDim S100000x64 ![0, 1] bcast_S100000x1_S100000x64_0_1 (broadcastInDim S100000x1 ![0] bcast_S100000_S100000x1_0 deg)))) w)
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
    = layer z s (shapeCast S100000x1 (mulf (Host.divf (F := Ideal) one1 cnt) (Host.divf (F := Ideal) one2 deg)) hcast) w b := by
  refine ext_ix2 fun r c => ?_
  unfold layer
  rw [dense_ix2]
  refine congrArg₂ max (congrArg₂ (· + ·) ((Cert.LibRowOps.dot_entry _ rfl _ w r c).trans ?_) (Cert.LibRowOps.bias_rows_host b _ _ r c))
    (Cert.LibRowOps.scalar_bcast_host _ _ _)
  exact Finset.sum_congr rfl fun k _ => congrArg (· * w (ix2 k c)) (host_sharpen z s cnt deg one1 one2 h1 h2 hc hd hcast r k)

/-- A one broadcast to a vector reads one. -/
theorem ones_apply (i : S100000.Idx) :
    broadcastInDim S100000 ![] bcast_S_S100000 (constant (F := Ideal) S_ .f32 0x3F800000#32) i = 1 :=
  (Cert.LibRowOps.scalar_bcast_host _ _ i).trans Cert.LibRecipForms.one_word

variable (x0 : FVec Ideal S100000x64 .f32) (x1 : IVec S2x1200000 32) (x2 : FVec Ideal S64x64 .f32) (x3 : FVec Ideal S64 .f32)
  (x4 : FVec Ideal S64x64 .f32) (x5 : FVec Ideal S64 .f32) (x6 : FVec Ideal S64x64 .f32) (x7 : FVec Ideal S64 .f32)

/-- The first layer. -/
theorem stage_z1 : val_main_v8 (F := Ideal) x0 x2 x3 = dense x0 x2 x3 := by
  unfold val_main_v8 val_main_v7 val_main_v6 val_main_v5 val_main_v4 val_main_call0_v0 val_main_call0_cst
  exact host_dense x0 x2 x3

/-- The reference's counts and neighbour sums are the other program's terms. -/
theorem stage_deg1 : val_main_v15 (F := Ideal) x1 = Cert.KernelIdeal.Hand.count (Cert.KernelIdeal.Hand.src2 x1) := rfl
theorem stage_cnt1 : val_main_v28 (F := Ideal) x1 = Cert.KernelIdeal.Hand.count (Cert.KernelIdeal.Hand.dst2 x1) := rfl
theorem stage_sums1 : val_main_v25 (F := Ideal) x0 x1 x2 x3 = Cert.KernelIdeal.Hand.agg x1 (val_main_v8 (F := Ideal) x0 x2 x3) := rfl
theorem stage_deg2 : val_main_v47 (F := Ideal) x1 = Cert.KernelIdeal.Hand.count (Cert.KernelIdeal.Hand.src2 x1) := rfl
theorem stage_cnt2 : val_main_v60 (F := Ideal) x1 = Cert.KernelIdeal.Hand.count (Cert.KernelIdeal.Hand.dst2 x1) := rfl
theorem stage_sums2 : val_main_v57 (F := Ideal) x0 x1 x2 x3 x4 x5 = Cert.KernelIdeal.Hand.agg x1 (val_main_v40 (F := Ideal) x0 x1 x2 x3 x4 x5) := rfl

/-- The second layer. -/
theorem stage_z2 : val_main_v40 (F := Ideal) x0 x1 x2 x3 x4 x5
    = layer (val_main_v8 (F := Ideal) x0 x2 x3) (val_main_v25 (F := Ideal) x0 x1 x2 x3) (Cert.KernelIdeal.Hand.scale x1) x4 x5 := by
  unfold val_main_v40 val_main_v39 val_main_v38 val_main_v37 val_main_v36 val_main_v35 val_main_v34 val_main_v33 val_main_v32
    val_main_v31 val_main_v30 val_main_v29 val_main_call1_v0 val_main_call1_cst
  rw [stage_deg1, stage_cnt1]
  exact host_layer _ _ _ _ _ _ ones_apply ones_apply (Cert.KernelIdeal.Hand.count_dst_ne_zero x1) (Cert.KernelIdeal.Hand.count_src_ne_zero x1) _ x4 x5

/-- The third layer. -/
theorem stage_z3 : val_main_v72 (F := Ideal) x0 x1 x2 x3 x4 x5 x6 x7
    = layer (val_main_v40 (F := Ideal) x0 x1 x2 x3 x4 x5) (val_main_v57 (F := Ideal) x0 x1 x2 x3 x4 x5) (Cert.KernelIdeal.Hand.scale x1) x6 x7 := by
  unfold val_main_v72 val_main_v71 val_main_v70 val_main_v69 val_main_v68 val_main_v67 val_main_v66 val_main_v65 val_main_v64
    val_main_v63 val_main_v62 val_main_v61 val_main_call2_v0 val_main_call2_cst
  rw [stage_deg2, stage_cnt2]
  exact host_layer _ _ _ _ _ _ ones_apply ones_apply (Cert.KernelIdeal.Hand.count_dst_ne_zero x1) (Cert.KernelIdeal.Hand.count_src_ne_zero x1) _ x6 x7

/-- THE RESULT: the reference's result is the whole computation of the argument arrays. -/
theorem result_eq : val_main_v72 (F := Ideal) x0 x1 x2 x3 x4 x5 x6 x7 = Cert.KernelIdeal.Hand.total x0 x1 x2 x3 x4 x5 x6 x7 := by
  rw [stage_z3, stage_sums2, stage_z2, stage_sums1, stage_z1]
  rfl

end Cert.ReferenceIdeal.Hand

end
-- ==== Proof.lean ====
/-
  Three dense layers over 100000 nodes with a high-pass graph filter between them, against the plain formulation.

  Both programs compute z1 = max(x · W1 + b1, 0), then twice z ↦ max((z − m(z) · s) · W + b, 0), where m(z) sums the
  rows of z over the edges arriving at each node (self loops included) and s is a per-node factor. One program has
  s = (1 / arrivals) · (1 / departures) computed once and multiplied in; the other divides m(z) by the arrivals and then by
  the departures. Every node has its self loop, so both counts are at least one; dividing an extended real by a nonzero
  count is multiplying by its inverse, and the two forms agree by associativity of the product — no finiteness is used.
  The tiled program's three regions each write 20 blocks of 5000 rows; a row of a layer depends on the same row of its
  inputs only, so the blocks are the blocks of the layer of the whole arrays.
  The idealization rewrote nothing, so its conjunct is trivial; the three frames are the generated frame certificates and
  the reference's generated run.
-/
import proofs.«177973_j70866960384012_1_alg».proof.Defs
import proofs.«177973_j70866960384012_1_alg».proof.Proof.Gen.Kernel
import proofs.«177973_j70866960384012_1_alg».proof.Proof.Gen.Kernel.Skeleton
import proofs.«177973_j70866960384012_1_alg».proof.Proof.Gen.Kernel.Launch
import proofs.«177973_j70866960384012_1_alg».proof.Proof.Gen.Kernel.Points
import proofs.«177973_j70866960384012_1_alg».proof.Proof.Gen.Kernel.Frame
import proofs.«177973_j70866960384012_1_alg».proof.Proof.Gen.KernelIdeal
import proofs.«177973_j70866960384012_1_alg».proof.Proof.Gen.KernelIdeal.Skeleton
import proofs.«177973_j70866960384012_1_alg».proof.Proof.Gen.KernelIdeal.Launch
import proofs.«177973_j70866960384012_1_alg».proof.Proof.Gen.KernelIdeal.Points
import proofs.«177973_j70866960384012_1_alg».proof.Proof.Gen.KernelIdeal.Frame
import proofs.«177973_j70866960384012_1_alg».proof.Proof.Gen.ReferenceIdeal
import proofs.«177973_j70866960384012_1_alg».proof.Proof.Gen.Pre_finite_inputs
import proofs.«177973_j70866960384012_1_alg».proof.Proof.Gen.ReferenceIdeal.Run
import proofs.«177973_j70866960384012_1_alg».proof.Proof.Gen.ReferenceIdeal.Read
import proofs.«177973_j70866960384012_1_alg».proof.Proof.KernelRun
import proofs.«177973_j70866960384012_1_alg».proof.Proof.KernelValue
import proofs.«177973_j70866960384012_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result array at the whole computation of the argument arrays. -/
theorem algebraic : Cert.algebraic_KernelIdeal_ReferenceIdeal := by
  intro m ρ m' ρ' _ hagree
  refine ⟨fun c => Cert.KernelIdeal.Hand.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v72_eq, Cert.ReferenceIdeal.Hand.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
